-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x768 : Shape := ⟨3, ![64, 256, 768]⟩
abbrev S4608x768 : Shape := ⟨2, ![4608, 768]⟩
abbrev S4608 : Shape := ⟨1, ![4608]⟩
abbrev S12x256 : Shape := ⟨2, ![12, 256]⟩
abbrev S768x3072 : Shape := ⟨2, ![768, 3072]⟩
abbrev S768 : Shape := ⟨1, ![768]⟩
abbrev S256x256 : Shape := ⟨2, ![256, 256]⟩
abbrev S_ : Shape := ⟨0, ![]⟩

class Facts : Prop where
  bcast_S_S64x256x768 : S_.BroadcastsInDim S64x256x768 (![] : Fin 0 → Fin S64x256x768.rank)
  reducesTo_S64x256x768_S_d0_1_2 : S64x256x768.ReducesTo [0, 1, 2] S_
  h_S_ : 0 < S_.numel
  bcast_S_S4608x768 : S_.BroadcastsInDim S4608x768 (![] : Fin 0 → Fin S4608x768.rank)
  reducesTo_S4608x768_S_d0_1 : S4608x768.ReducesTo [0, 1] S_
  bcast_S_S4608 : S_.BroadcastsInDim S4608 (![] : Fin 0 → Fin S4608.rank)
  reducesTo_S4608_S_d0 : S4608.ReducesTo [0] S_
  bcast_S_S12x256 : S_.BroadcastsInDim S12x256 (![] : Fin 0 → Fin S12x256.rank)
  reducesTo_S12x256_S_d0_1 : S12x256.ReducesTo [0, 1] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_arg5 : FVec F S4608 .f32) (main_arg11 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_cst_22 : FVec F S_ .f32 := constant S_ .f32 0x00000000#32
  let main_v59 : FVec F S4608 .f32 := broadcastInDim S4608 ![] bcast_S_S4608 main_cst_22
  let main_v60 : IVec S4608 1 := cmpf .oge main_arg5 main_v59
  let main_c_23 : IVec S_ 1 := constantI S_ 1 1#1
  let main_v61 : IVec S_ 1 := (fun x v => Host.reduce IntOp.andi x v reducesTo_S4608_S_d0 h_S_) main_v60 main_c_23
  let main_v62 : IVec S_ 1 := andi main_v58 main_v61
  let main_cst_24 : FVec F S_ .f32 := constant S_ .f32 0x00000000#32
  let main_v63 : FVec F S768 .f32 := broadcastInDim S768 ![] bcast_S_S768 main_cst_24
  let main_v64 : IVec S768 1 := cmpf .oge main_arg11 main_v63
  let main_c_25 : IVec S_ 1 := constantI S_ 1 1#1
  let main_v65 : IVec S_ 1 := (fun x v => Host.reduce IntOp.andi x v reducesTo_S768_S_d0 h_S_) main_v64 main_c_25
  let main_v66 : IVec S_ 1 := andi main_v62 main_v65
  main_v66

def fn_part2 {F : FTy → Type} [FloatOps F] (main_arg5 : FVec F S4608 .f32) (main_arg7 : FVec F S768x3072 .f32) (main_arg8 : FVec F S768 .f32) (main_arg9 : FVec F S768 .f32) (main_arg10 : FVec F S768 .f32) (main_arg11 : FVec F S768 .f32) (main_v33 : IVec S_ 1) : IVec S_ 1 :=
  let main_v34 : FVec F S768x3072 .f32 := Host.absf main_arg7
  let main_cst_12 : FVec F S_ .f32 := constant S_ .f32 0x7F800000#32
  let main_v35 : FVec F S768x3072 .f32 := broadcastInDim S768x3072 ![] bcast_S_S768x3072 main_cst_12
  let main_v36 : IVec S768x3072 1 := cmpf .olt main_v34 main_v35
  let main_c_13 : IVec S_ 1 := constantI S_ 1 1#1
  let main_v37 : IVec S_ 1 := (fun x v => Host.reduce IntOp.andi x v reducesTo_S768x3072_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg5 main_arg11 main_v48 main_v49 main_v50

def fn_part1 {F : FTy → Type} [FloatOps F] (main_arg4 : FVec F S4608 .f32) (main_arg5 : FVec F S4608 .f32) (main_arg6 : FVec F S12x256 .f32) (main_arg7 : FVec F S768x3072 .f32) (main_arg8 : FVec F S768 .f32) (main_arg9 : FVec F S768 .f32) (main_arg10 : FVec F S768 .f32) (main_arg11 : FVec F S768 .f32) (main_v13 : IVec S_ 1) (main_v16 : IVec S4608 1) : IVec S_ 1 :=
  let main_c_5 : IVec S_ 1 := constantI S_ 1 1#1
  let main_v17 : IVec S_ 1 := (fun x v => Host.reduce IntOp.andi x v reducesTo_S4608_S_d0 h_S_) main_v16 main_c_5
  let main_v18 : IVec S_ 1 := andi main_v13 main_v17
  let main_v19 : FVec F S4608 .f32 := Host.absf main_arg4
  let main_cst_6 : FVec F S_ .f32 := constant S_ .f32 0x7F800000#32
  let main_v20 : FVec F S4608 .f32 := broadcastInDim S4608 ![] bcast_S_S4608 main_cst_6
  let main_v21 : IVec S4608 1 := cmpf .olt main_v19 main_v20
  let main_c_7 : IVec S_ 1 := constantI S_ 1 1#1
  let main_v22 : IVec S_ 1 := (fun x v => Host.reduce IntOp.andi x v reducesTo_S4608_S_d0 h_S_) main_v21 main_c_7
  let main_v23 : IVec S_ 1 := andi main_v18 main_v22
  let main_v24 : FVec F S4608 .f32 := Host.absf main_arg5
  let main_cst_8 : FVec F S_ .f32 := constant S_ .f32 0x7F800000#32
  let main_v25 : FVec F S4608 .f32 := broadcastInDim S4608 ![] bcast_S_S4608 main_cst_8
  let main_v26 : IVec S4608 1 := cmpf .olt main_v24 main_v25
  let main_c_9 : IVec S_ 1 := constantI S_ 1 1#1
  let main_v27 : IVec S_ 1 := (fun x v => Host.reduce IntOp.andi x v reducesTo_S4608_S_d0 h_S_) main_v26 main_c_9
  let main_v28 : IVec S_ 1 := andi main_v23 main_v27
  let main_v29 : FVec F S12x256 .f32 := Host.absf main_arg6
  let main_cst_10 : FVec F S_ .f32 := constant S_ .f32 0x7F800000#32
  let main_v30 : FVec F S12x256 .f32 := broadcastInDim S12x256 ![] bcast_S_S12x256 main_cst_10
  let main_v31 : IVec S12x256 1 := cmpf .olt main_v29 main_v30
  let main_c_11 : IVec S_ 1 := constantI S_ 1 1#1
  let main_v32 : IVec S_ 1 := (fun x v => Host.reduce IntOp.andi x v reducesTo_S12x256_S_d0_1 h_S_) main_v31 main_c_11
  let main_v33 : IVec S_ 1 := andi main_v28 main_v32
  fn_part2 (F := F) main_arg5 main_arg7 main_arg8 main_arg9 main_arg10 main_arg11 main_v33

def fn {F : FTy → Type} [FloatOps F] (main_arg0 : FVec F S64x256x768 .f32) (main_arg1 : FVec F S4608x768 .f32) (main_arg2 : FVec F S4608 .f32) (main_arg3 : FVec F S4608 .f32) (main_arg4 : FVec F S4608 .f32) (main_arg5 : FVec F S4608 .f32) (main_arg6 : FVec F S12x256 .f32) (main_arg7 : FVec F S768x3072 .f32) (main_arg8 : FVec F S768 .f32) (main_arg9 : FVec F S768 .f32) (main_arg10 : FVec F S768 .f32) (main_arg11 : FVec F S768 .f32) (main_arg12 : IVec S256x256 32) : IVec S_ 1 :=
  let main_v0 : FVec F S64x256x768 .f32 := Host.absf main_arg0
  let main_cst : FVec F S_ .f32 := constant S_ .f32 0x7F800000#32
  let main_v1 : FVec F S64x256x768 .f32 := broadcastInDim S64x256x768 ![] bcast_S_S64x256x768 main_cst
  let main_v2 : IVec S64x256x768 1 := cmpf .olt main_v0 main_v1
  let main_c : IVec S_ 1 := constantI S_ 1 1#1
  let main_v3 : IVec S_ 1 := (fun x v => Host.reduce IntOp.andi x v reducesTo_S64x256x768_S_d0_1_2 h_S_) main_v2 main_c
  let main_v4 : FVec F S4608x768 .f32 := Host.absf main_arg1
  let main_cst_0 : FVec F S_ .f32 := constant S_ .f32 0x7F800000#32
  let main_v5 : FVec F S4608x768 .f32 := broadcastInDim S4608x768 ![] bcast_S_S4608x768 main_cst_0
  let main_v6 : IVec S4608x768 1 := cmpf .olt main_v4 main_v5
  let main_c_1 : IVec S_ 1 := constantI S_ 1 1#1
  let main_v7 : IVec S_ 1 := (fun x v => Host.reduce IntOp.andi x v reducesTo_S4608x768_S_d0_1 h_S_) main_v6 main_c_1
  let main_v8 : IVec S_ 1 := andi main_v3 main_v7
  let main_v9 : FVec F S4608 .f32 := Host.absf main_arg2
  let main_cst_2 : FVec F S_ .f32 := constant S_ .f32 0x7F800000#32
  let main_v10 : FVec F S4608 .f32 := broadcastInDim S4608 ![] bcast_S_S4608 main_cst_2
  let main_v11 : IVec S4608 1 := cmpf .olt main_v9 main_v10
  let main_c_3 : IVec S_ 1 := constantI S_ 1 1#1
  let main_v12 : IVec S_ 1 := (fun x v => Host.reduce IntOp.andi x v reducesTo_S4608_S_d0 h_S_) main_v11 main_c_3
  let main_v13 : IVec S_ 1 := andi main_v8 main_v12
  let main_v14 : FVec F S4608 .f32 := Host.absf main_arg3
  let main_cst_4 : FVec F S_ .f32 := constant S_ .f32 0x7F800000#32
  let main_v15 : FVec F S4608 .f32 := broadcastInDim S4608 ![] bcast_S_S4608 main_cst_4
  let main_v16 : IVec S4608 1 := cmpf .olt main_v14 main_v15
  fn_part1 (F := F) main_arg4 main_arg5 main_arg6 main_arg7 main_arg8 main_arg9 main_arg10 main_arg11 main_v13 main_v16
-- ==== Kernel.lean ====
abbrev S64x256x768 : Shape := ⟨3, ![64, 256, 768]⟩
abbrev S4608x768 : Shape := ⟨2, ![4608, 768]⟩
abbrev S4608 : Shape := ⟨1, ![4608]⟩
abbrev S12x256 : Shape := ⟨2, ![12, 256]⟩
abbrev S768x3072 : Shape := ⟨2, ![768, 3072]⟩
abbrev S768 : Shape := ⟨1, ![768]⟩
abbrev S256x256 : Shape := ⟨2, ![256, 256]⟩
abbrev S768x4608 : Shape := ⟨2, ![768, 4608]⟩
abbrev S_ : Shape := ⟨0, ![]⟩
abbrev S1x4608 : Shape := ⟨2, ![1, 4608]⟩
abbrev S3072x768 : Shape := ⟨2, ![3072, 768]⟩
abbrev S1x768 : Shape := ⟨2, ![1, 768]⟩
abbrev S256x256x1 : Shape := ⟨3, ![256, 256, 1]⟩
abbrev S12x256x256 : Shape := ⟨3, ![12, 256, 256]⟩
abbrev S1x256x768 : Shape := ⟨3, ![1, 256, 768]⟩
abbrev S256x3072 : Shape := ⟨2, ![256, 3072]⟩
abbrev S256x768 : Shape := ⟨2, ![256, 768]⟩
abbrev S768x384 : Shape := ⟨2, ![768, 384]⟩
abbrev S256x384 : Shape := ⟨2, ![256, 384]⟩
abbrev S1x384 : Shape := ⟨2, ![1, 384]⟩
abbrev S256x64 : Shape := ⟨2, ![256, 64]⟩
abbrev S64x256 : Shape := ⟨2, ![64, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 45
  | .vmem => 12
  | .smem => 0
  | _ => 0

abbrev bufTy : (tb : Table) → Fin (tcTables nBuf tb) → BufTy
  | .hbm, ⟨0, _⟩ => ⟨S64x256x768, .f32⟩
  | .hbm, ⟨1, _⟩ => ⟨S4608x768, .f32⟩
  | .hbm, ⟨2, _⟩ => ⟨S4608, .f32⟩
  | .hbm, ⟨3, _⟩ => ⟨S4608, .f32⟩
  | .hbm, ⟨4, _⟩ => ⟨S4608, .f32⟩
  | .hbm, ⟨5, _⟩ => ⟨S4608, .f32⟩
  | .hbm, ⟨6, _⟩ => ⟨S12x256, .f32⟩
  | .hbm, ⟨7, _⟩ => ⟨S768x3072, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S256x256, .i32⟩
  | .hbm, ⟨13, _⟩ => ⟨S768x4608, .f32⟩
  | .hbm, ⟨14, _⟩ => ⟨S768x4608, .bf16⟩
  | .hbm, ⟨15, _⟩ => ⟨S_, .f32⟩
  | .hbm, ⟨16, _⟩ => ⟨S4608, .f32⟩
  | .hbm, ⟨17, _⟩ => ⟨S4608, .f32⟩
  | .hbm, ⟨18, _⟩ => ⟨S4608, .f32⟩
  | .hbm, ⟨19, _⟩ => ⟨S4608, .f32⟩
  | .hbm, ⟨20, _⟩ => ⟨S4608, .f32⟩
  | .hbm, ⟨21, _⟩ => ⟨S4608, .f32⟩
  | .hbm, ⟨22, _⟩ => ⟨S1x4608, .f32⟩
  | .hbm, ⟨23, _⟩ => ⟨S1x4608, .f32⟩
  | .hbm, ⟨24, _⟩ => ⟨S3072x768, .f32⟩
  | .hbm, ⟨25, _⟩ => ⟨S3072x768, .bf16⟩
  | .hbm, ⟨26, _⟩ => ⟨S_, .f32⟩
  | .hbm, ⟨27, _⟩ => ⟨S768, .f32⟩
  | .hbm, ⟨28, _⟩ => ⟨S768, .f32⟩
  | .hbm, ⟨29, _⟩ => ⟨S768, .f32⟩
  | .hbm, ⟨30, _⟩ => ⟨S768, .f32⟩
  | .hbm, ⟨31, _⟩ => ⟨S768, .f32⟩
  | .hbm, ⟨32, _⟩ => ⟨S768, .f32⟩
  | .hbm, ⟨33, _⟩ => ⟨S1x768, .f32⟩
  | .hbm, ⟨34, _⟩ => ⟨S1x768, .f32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256x1, .i32⟩
  | .hbm, ⟨43, _⟩ => ⟨S12x256x256, .f32⟩
  | .hbm, ⟨44, _⟩ => ⟨S64x256x768, .f32⟩
  | .local _ .vmem, ⟨0, _⟩ => ⟨S1x256x768, .f32⟩
  | .local _ .vmem, ⟨1, _⟩ => ⟨S1x256x768, .f32⟩
  | .local _ .vmem, ⟨2, _⟩ => ⟨S768x4608, .bf16⟩
  | .local _ .vmem, ⟨3, _⟩ => ⟨S1x4608, .f32⟩
  | .local _ .vmem, ⟨4, _⟩ => ⟨S1x4608, .f32⟩
  | .local _ .vmem, ⟨5, _⟩ => ⟨S12x256x256, .f32⟩
  | .local _ .vmem, ⟨6, _⟩ => ⟨S3072x768, .bf16⟩
  | .local _ .vmem, ⟨7, _⟩ => ⟨S1x768, .f32⟩
  | .local _ .vmem, ⟨8, _⟩ => ⟨S1x768, .f32⟩
  | .local _ .vmem, ⟨9, _⟩ => ⟨S1x256x768, .f32⟩
  | .local _ .vmem, ⟨10, _⟩ => ⟨S1x256x768, .f32⟩
  | .local _ .vmem, ⟨11, _⟩ => ⟨S256x3072, .bf16⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4608x768_S768x4608_1_0 : S4608x768.Transposes [1, 0] S768x4608
  bitsLt_bf16_f32 : FTy.bits .bf16 < FTy.bits .f32
  bcast_S_S4608 : S_.BroadcastsInDim S4608 (![] : Fin 0 → Fin S4608.rank)
  shapeCasts_S4608_S1x4608 : S4608.ShapeCasts S1x4608
  transposes_S768x3072_S3072x768_1_0 : S768x3072.Transposes [1, 0] S3072x768
  bcast_S_S768 : S_.BroadcastsInDim S768 (![] : Fin 0 → Fin S768.rank)
  shapeCasts_S768_S1x768 : S768.ShapeCasts S1x768
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S768x4608_S768x384_0_0 : ∀ a, (![0, 0] : Fin 2 → Nat) a + S768x384.size a ≤ S768x4608.size a
  h_S768x384 : 0 < S768x384.numel
  shapeCasts_S768x384_S768x384 : S768x384.ShapeCasts S768x384
  inb_S1x4608_S1x384_0_0 : ∀ a, (![0, 0] : Fin 2 → Nat) a + S1x384.size a ≤ S1x4608.size a
  h_S1x384 : 0 < S1x384.numel
  shapeCasts_S1x384_S1x384 : S1x384.ShapeCasts S1x384
  broadcasts_S1x384_S256x384 : S1x384.Broadcasts S256x384
  slices_S256x384_o0_0_S256x64 : S256x384.Slices ![0, 0] S256x64
  slices_S256x384_o0_64_S256x64 : S256x384.Slices ![0, 64] S256x64
  slices_S256x384_o0_128_S256x256 : S256x384.Slices ![0, 128] S256x256
  transposes_S256x64_p1_0_S64x256 : S256x64.Transposes [1, 0] S64x256
  inb_S12x256x256_S1x256x256_0_0_0 : ∀ a, (![0, 0, 0] : Fin 3 → Nat) a + S1x256x256.size a ≤ S12x256x256.size a
  h_S1x256x256 : 0 < S1x256x256.numel
  shapeCasts_S1x256x256_S256x256 : S1x256x256.ShapeCasts S256x256
  reduces_S256x256_S256 : S256x256.Reduces [1] S256
  shapeCasts_S256_S256x1 : S256.ShapeCasts S256x1
  broadcasts_S256x1_S256x256 : S256x1.Broadcasts S256x256
  inb_S256x3072_S256x256_0_0 : ∀ a, (![0, 0] : Fin 2 → Nat) a + S256x256.size a ≤ S256x3072.size a
  h_S256x256 : 0 < S256x256.numel
  shapeCasts_S256x256_S256x256 : S256x256.ShapeCasts S256x256
  packedbf16_S256x3072_S256x256_0_0 : (Rect.unit (s := S256x3072) ![0, 0] S256x256.size inb_S256x3072_S256x256_0_0).PackedRows (EltTy.packing .bf16)
  inb_S768x4608_S768x384_0_384 : ∀ a, (![0, 384] : Fin 2 → Nat) a + S768x384.size a ≤ S768x4608.size a
  inb_S1x4608_S1x384_0_384 : ∀ a, (![0, 384] : Fin 2 → Nat) a + S1x384.size a ≤ S1x4608.size a
  inb_S12x256x256_S1x256x256_1_0_0 : ∀ a, (![1, 0, 0] : Fin 3 → Nat) a + S1x256x256.size a ≤ S12x256x256.size a
  inb_S256x3072_S256x256_0_256 : ∀ a, (![0, 256] : Fin 2 → Nat) a + S256x256.size a ≤ S256x3072.size a
  packedbf16_S256x3072_S256x256_0_256 : (Rect.unit (s := S256x3072) ![0, 256] S256x256.size inb_S256x3072_S256x256_0_256).PackedRows (EltTy.packing .bf16)
  inb_S768x4608_S768x384_0_768 : ∀ a, (![0, 768] : Fin 2 → Nat) a + S768x384.size a ≤ S768x4608.size a
  inb_S1x4608_S1x384_0_768 : ∀ a, (![0, 768] : Fin 2 → Nat) a + S1x384.size a ≤ S1x4608.size a
  inb_S12x256x256_S1x256x256_2_0_0 : ∀ a, (![2, 0, 0] : Fin 3 → Nat) a + S1x256x256.size a ≤ S12x256x256.size a
  inb_S256x3072_S256x256_0_512 : ∀ a, (![0, 512] : Fin 2 → Nat) a + S256x256.size a ≤ S256x3072.size a
  packedbf16_S256x3072_S256x256_0_512 : (Rect.unit (s := S256x3072) ![0, 512] S256x256.size inb_S256x3072_S256x256_0_512).PackedRows (EltTy.packing .bf16)
  inb_S768x4608_S768x384_0_1152 : ∀ a, (![0, 1152] : Fin 2 → Nat) a + S768x384.size a ≤ S768x4608.size a
  inb_S1x4608_S1x384_0_1152 : ∀ a, (![0, 1152] : Fin 2 → Nat) a + S1x384.size a ≤ S1x4608.size a
  inb_S12x256x256_S1x256x256_3_0_0 : ∀ a, (![3, 0, 0] : Fin 3 → Nat) a + S1x256x256.size a ≤ S12x256x256.size a
  inb_S256x3072_S256x256_0_768 : ∀ a, (![0, 768] : Fin 2 → Nat) a + S256x256.size a ≤ S256x3072.size a
  packedbf16_S256x3072_S256x256_0_768 : (Rect.unit (s := S256x3072) ![0, 768] S256x256.size inb_S256x3072_S256x256_0_768).PackedRows (EltTy.packing .bf16)
  inb_S768x4608_S768x384_0_1536 : ∀ a, (![0, 1536] : Fin 2 → Nat) a + S768x384.size a ≤ S768x4608.size a
  inb_S1x4608_S1x384_0_1536 : ∀ a, (![0, 1536] : Fin 2 → Nat) a + S1x384.size a ≤ S1x4608.size a
  inb_S12x256x256_S1x256x256_4_0_0 : ∀ a, (![4, 0, 0] : Fin 3 → Nat) a + S1x256x256.size a ≤ S12x256x256.size a
  inb_S256x3072_S256x256_0_1024 : ∀ a, (![0, 1024] : Fin 2 → Nat) a + S256x256.size a ≤ S256x3072.size a
  packedbf16_S256x3072_S256x256_0_1024 : (Rect.unit (s := S256x3072) ![0, 1024] S256x256.size inb_S256x3072_S256x256_0_1024).PackedRows (EltTy.packing .bf16)
  inb_S768x4608_S768x384_0_1920 : ∀ a, (![0, 1920] : Fin 2 → Nat) a + S768x384.size a ≤ S768x4608.size a
  inb_S1x4608_S1x384_0_1920 : ∀ a, (![0, 1920] : Fin 2 → Nat) a + S1x384.size a ≤ S1x4608.size a
  inb_S12x256x256_S1x256x256_5_0_0 : ∀ a, (![5, 0, 0] : Fin 3 → Nat) a + S1x256x256.size a ≤ S12x256x256.size a
  inb_S256x3072_S256x256_0_1280 : ∀ a, (![0, 1280] : Fin 2 → Nat) a + S256x256.size a ≤ S256x3072.size a
  packedbf16_S256x3072_S256x256_0_1280 : (Rect.unit (s := S256x3072) ![0, 1280] S256x256.size inb_S256x3072_S256x256_0_1280).PackedRows (EltTy.packing .bf16)
  inb_S768x4608_S768x384_0_2304 : ∀ a, (![0, 2304] : Fin 2 → Nat) a + S768x384.size a ≤ S768x4608.size a
  inb_S1x4608_S1x384_0_2304 : ∀ a, (![0, 2304] : Fin 2 → Nat) a + S1x384.size a ≤ S1x4608.size a
  inb_S12x256x256_S1x256x256_6_0_0 : ∀ a, (![6, 0, 0] : Fin 3 → Nat) a + S1x256x256.size a ≤ S12x256x256.size a
  inb_S256x3072_S256x256_0_1536 : ∀ a, (![0, 1536] : Fin 2 → Nat) a + S256x256.size a ≤ S256x3072.size a
  packedbf16_S256x3072_S256x256_0_1536 : (Rect.unit (s := S256x3072) ![0, 1536] S256x256.size inb_S256x3072_S256x256_0_1536).PackedRows (EltTy.packing .bf16)
  inb_S768x4608_S768x384_0_2688 : ∀ a, (![0, 2688] : Fin 2 → Nat) a + S768x384.size a ≤ S768x4608.size a
  inb_S1x4608_S1x384_0_2688 : ∀ a, (![0, 2688] : Fin 2 → Nat) a + S1x384.size a ≤ S1x4608.size a
  inb_S12x256x256_S1x256x256_7_0_0 : ∀ a, (![7, 0, 0] : Fin 3 → Nat) a + S1x256x256.size a ≤ S12x256x256.size a
  inb_S256x3072_S256x256_0_1792 : ∀ a, (![0, 1792] : Fin 2 → Nat) a + S256x256.size a ≤ S256x3072.size a
  packedbf16_S256x3072_S256x256_0_1792 : (Rect.unit (s := S256x3072) ![0, 1792] S256x256.size inb_S256x3072_S256x256_0_1792).PackedRows (EltTy.packing .bf16)
  inb_S768x4608_S768x384_0_3072 : ∀ a, (![0, 3072] : Fin 2 → Nat) a + S768x384.size a ≤ S768x4608.size a
  inb_S1x4608_S1x384_0_3072 : ∀ a, (![0, 3072] : Fin 2 → Nat) a + S1x384.size a ≤ S1x4608.size a
  inb_S12x256x256_S1x256x256_8_0_0 : ∀ a, (![8, 0, 0] : Fin 3 → Nat) a + S1x256x256.size a ≤ S12x256x256.size a
  inb_S256x3072_S256x256_0_2048 : ∀ a, (![0, 2048] : Fin 2 → Nat) a + S256x256.size a ≤ S256x3072.size a
  packedbf16_S256x3072_S256x256_0_2048 : (Rect.unit (s := S256x3072) ![0, 2048] S256x256.size inb_S256x3072_S256x256_0_2048).PackedRows (EltTy.packing .bf16)
  inb_S768x4608_S768x384_0_3456 : ∀ a, (![0, 3456] : Fin 2 → Nat) a + S768x384.size a ≤ S768x4608.size a
  inb_S1x4608_S1x384_0_3456 : ∀ a, (![0, 3456] : Fin 2 → Nat) a + S1x384.size a ≤ S1x4608.size a
  inb_S12x256x256_S1x256x256_9_0_0 : ∀ a, (![9, 0, 0] : Fin 3 → Nat) a + S1x256x256.size a ≤ S12x256x256.size a
  inb_S256x3072_S256x256_0_2304 : ∀ a, (![0, 2304] : Fin 2 → Nat) a + S256x256.size a ≤ S256x3072.size a
  packedbf16_S256x3072_S256x256_0_2304 : (Rect.unit (s := S256x3072) ![0, 2304] S256x256.size inb_S256x3072_S256x256_0_2304).PackedRows (EltTy.packing .bf16)
  inb_S768x4608_S768x384_0_3840 : ∀ a, (![0, 3840] : Fin 2 → Nat) a + S768x384.size a ≤ S768x4608.size a
  inb_S1x4608_S1x384_0_3840 : ∀ a, (![0, 3840] : Fin 2 → Nat) a + S1x384.size a ≤ S1x4608.size a
  inb_S12x256x256_S1x256x256_10_0_0 : ∀ a, (![10, 0, 0] : Fin 3 → Nat) a + S1x256x256.size a ≤ S12x256x256.size a
  inb_S256x3072_S256x256_0_2560 : ∀ a, (![0, 2560] : Fin 2 → Nat) a + S256x256.size a ≤ S256x3072.size a
  packedbf16_S256x3072_S256x256_0_2560 : (Rect.unit (s := S256x3072) ![0, 2560] S256x256.size inb_S256x3072_S256x256_0_2560).PackedRows (EltTy.packing .bf16)
  inb_S768x4608_S768x384_0_4224 : ∀ a, (![0, 4224] : Fin 2 → Nat) a + S768x384.size a ≤ S768x4608.size a
  inb_S1x4608_S1x384_0_4224 : ∀ a, (![0, 4224] : Fin 2 → Nat) a + S1x384.size a ≤ S1x4608.size a
  inb_S12x256x256_S1x256x256_11_0_0 : ∀ a, (![11, 0, 0] : Fin 3 → Nat) a + S1x256x256.size a ≤ S12x256x256.size a
  inb_S256x3072_S256x256_0_2816 : ∀ a, (![0, 2816] : Fin 2 → Nat) a + S256x256.size a ≤ S256x3072.size a
  packedbf16_S256x3072_S256x256_0_2816 : (Rect.unit (s := S256x3072) ![0, 2816] S256x256.size inb_S256x3072_S256x256_0_2816).PackedRows (EltTy.packing .bf16)
  inb_S256x3072_S256x3072_0_0 : ∀ a, (![0, 0] : Fin 2 → Nat) a + S256x3072.size a ≤ S256x3072.size a
  h_S256x3072 : 0 < S256x3072.numel
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S256x768_S1x256x768 : S256x768.ShapeCasts S1x256x768
  gather_S12x256_S256x256x1_S12x256x256_0_1_n_n_1_2_121_wf : GatherDims.WF S12x256 S256x256x1 S12x256x256 [0] [1] [] [1] [] 2 ![12, 1]
  dot_S256x768_S768x384_S256x384_1_0_0_1_n_n_wf : DotDims.WF S256x768 S768x384 S256x384 [1] [0] [0] [1] [] []
  dot_S256x64_S64x256_S256x256_1_0_0_1_n_n_wf : DotDims.WF S256x64 S64x256 S256x256 [1] [0] [0] [1] [] []
  dot_S256x256_S256x256_S256x256_1_0_0_1_n_n_wf : DotDims.WF S256x256 S256x256 S256x256 [1] [0] [0] [1] [] []
  dot_S256x3072_S3072x768_S256x768_1_0_0_1_n_n_wf : DotDims.WF S256x3072 S3072x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S64x256x768.size a
  hwx0_0 : ∀ i : grid0.Coords, EltTy.bits .f32 = 32 ∨ (Rect.block (s := S64x256x768) S1x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x4608.size a ≤ S768x4608.size a
  hwx0_1 : ∀ i : grid0.Coords, EltTy.bits .bf16 = 32 ∨ (Rect.block (s := S768x4608) S768x4608.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4608.size a ≤ S1x4608.size a
  hwx0_2 : ∀ i : grid0.Coords, EltTy.bits .f32 = 32 ∨ (Rect.block (s := S1x4608) S1x4608.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4608.size a ≤ S1x4608.size a
  hwx0_3 : ∀ i : grid0.Coords, EltTy.bits .f32 = 32 ∨ (Rect.block (s := S1x4608) S1x4608.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x256x256.size a ≤ S12x256x256.size a
  hwx0_4 : ∀ i : grid0.Coords, EltTy.bits .f32 = 32 ∨ (Rect.block (s := S12x256x256) S12x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072x768.size a ≤ S3072x768.size a
  hwx0_5 : ∀ i : grid0.Coords, EltTy.bits .bf16 = 32 ∨ (Rect.block (s := S3072x768) S3072x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x768.size a ≤ S64x256x768.size a
  hwx0_8 : ∀ i : grid0.Coords, EltTy.bits .f32 = 32 ∨ (Rect.block (s := S64x256x768) S1x256x768.size (cc0_transform_8 i) (hinb0_8 i)).WholeWords (EltTy.packing .f32)

variable [Facts₀]

def gather_S12x256_S256x256x1_S12x256x256_0_1_n_n_1_2_121 : GatherDims S12x256 S256x256x1 S12x256x256 where
  offsetDims := [0]
  collapsedSliceDims := [1]
  operandBatchingDims := []
  startIndicesBatchingDims := []
  startIndexMap := [1]
  indexVectorDim := 2
  sliceSizes := ![12, 1]
  wf := gather_S12x256_S256x256x1_S12x256x256_0_1_n_n_1_2_121_wf
def dot_S256x768_S768x384_S256x384_1_0_0_1_n_n : DotDims S256x768 S768x384 S256x384 where
  lhsContracting := [1]
  rhsContracting := [0]
  lhsNonContracting := [0]
  rhsNonContracting := [1]
  lhsBatch := []
  rhsBatch := []
  wf := dot_S256x768_S768x384_S256x384_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x4608.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4608.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x4608.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S12x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S3072x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x256x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x256x768 : Shape := ⟨3, ![64, 256, 768]⟩
abbrev S4608x768 : Shape := ⟨2, ![4608, 768]⟩
abbrev S4608 : Shape := ⟨1, ![4608]⟩
abbrev S12x256 : Shape := ⟨2, ![12, 256]⟩
abbrev S768x3072 : Shape := ⟨2, ![768, 3072]⟩
abbrev S768 : Shape := ⟨1, ![768]⟩
abbrev S256x256 : Shape := ⟨2, ![256, 256]⟩
abbrev S64x256x4608 : Shape := ⟨3, ![64, 256, 4608]⟩
abbrev S1x1x4608 : Shape := ⟨3, ![1, 1, 4608]⟩
abbrev S_ : Shape := ⟨0, ![]⟩
abbrev S64x256x12x384 : Shape := ⟨4, ![64, 256, 12, 384]⟩
abbrev S64x256x12x64 : Shape := ⟨4, ![64, 256, 12, 64]⟩
abbrev S64x12x256x64 : Shape := ⟨4, ![64, 12, 256, 64]⟩
abbrev S64x256x12x256 : Shape := ⟨4, ![64, 256, 12, 256]⟩
abbrev S64x12x256x256 : Shape := ⟨4, ![64, 12, 256, 256]⟩
abbrev S256x256x1 : Shape := ⟨3, ![256, 256, 1]⟩
abbrev S12x256x256 : Shape := ⟨3, ![12, 256, 256]⟩
abbrev S1x12x256x256 : Shape := ⟨4, ![1, 12, 256, 256]⟩
abbrev S64x12x256 : Shape := ⟨3, ![64, 12, 256]⟩
abbrev S64x12x256x1 : Shape := ⟨4, ![64, 12, 256, 1]⟩
abbrev S64x256x3072 : Shape := ⟨3, ![64, 256, 3072]⟩
abbrev S1x1x768 : Shape := ⟨3, ![1, 1, 768]⟩

abbrev nBuf : Space → Nat
  | .hbm => 98
  | .vmem => 0
  | .smem => 0
  | _ => 0

abbrev bufTy : (tb : Table) → Fin (tcTables nBuf tb) → BufTy
  | .hbm, ⟨0, _⟩ => ⟨S64x256x768, .f32⟩
  | .hbm, ⟨1, _⟩ => ⟨S4608x768, .f32⟩
  | .hbm, ⟨2, _⟩ => ⟨S4608, .f32⟩
  | .hbm, ⟨3, _⟩ => ⟨S4608, .f32⟩
  | .hbm, ⟨4, _⟩ => ⟨S4608, .f32⟩
  | .hbm, ⟨5, _⟩ => ⟨S4608, .f32⟩
  | .hbm, ⟨6, _⟩ => ⟨S12x256, .f32⟩
  | .hbm, ⟨7, _⟩ => ⟨S768x3072, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S256x256, .i32⟩
  | .hbm, ⟨13, _⟩ => ⟨S64x256x4608, .f32⟩
  | .hbm, ⟨14, _⟩ => ⟨S1x1x4608, .f32⟩
  | .hbm, ⟨15, _⟩ => ⟨S64x256x4608, .f32⟩
  | .hbm, ⟨16, _⟩ => ⟨S64x256x4608, .f32⟩
  | .hbm, ⟨17, _⟩ => ⟨S_, .f32⟩
  | .hbm, ⟨18, _⟩ => ⟨S4608, .f32⟩
  | .hbm, ⟨19, _⟩ => ⟨S4608, .f32⟩
  | .hbm, ⟨20, _⟩ => ⟨S4608, .f32⟩
  | .hbm, ⟨21, _⟩ => ⟨S4608, .f32⟩
  | .hbm, ⟨22, _⟩ => ⟨S1x1x4608, .f32⟩
  | .hbm, ⟨23, _⟩ => ⟨S64x256x4608, .f32⟩
  | .hbm, ⟨24, _⟩ => ⟨S64x256x4608, .f32⟩
  | .hbm, ⟨25, _⟩ => ⟨S1x1x4608, .f32⟩
  | .hbm, ⟨26, _⟩ => ⟨S64x256x4608, .f32⟩
  | .hbm, ⟨27, _⟩ => ⟨S64x256x4608, .f32⟩
  | .hbm, ⟨28, _⟩ => ⟨S64x256x12x384, .f32⟩
  | .hbm, ⟨29, _⟩ => ⟨S64x256x12x64, .f32⟩
  | .hbm, ⟨30, _⟩ => ⟨S64x12x256x64, .f32⟩
  | .hbm, ⟨31, _⟩ => ⟨S64x256x12x64, .f32⟩
  | .hbm, ⟨32, _⟩ => ⟨S64x12x256x64, .f32⟩
  | .hbm, ⟨33, _⟩ => ⟨S64x256x12x256, .f32⟩
  | .hbm, ⟨34, _⟩ => ⟨S64x12x256x256, .f32⟩
  | .hbm, ⟨35, _⟩ => ⟨S64x12x256x256, .f32⟩
  | .hbm, ⟨36, _⟩ => ⟨S_, .i32⟩
  | .hbm, ⟨37, _⟩ => ⟨S256x256, .i32⟩
  | .hbm, ⟨38, _⟩ => ⟨S256x256, .i1⟩
  | .hbm, ⟨39, _⟩ => ⟨S_, .i32⟩
  | .hbm, ⟨40, _⟩ => ⟨S256x256, .i32⟩
  | .hbm, ⟨41, _⟩ => ⟨S256x256, .i32⟩
  | .hbm, ⟨42, _⟩ => ⟨S256x256, .i32⟩
  | .hbm, ⟨43, _⟩ => ⟨S256x256x1, .i32⟩
  | .hbm, ⟨44, _⟩ => ⟨S12x256x256, .f32⟩
  | .hbm, ⟨45, _⟩ => ⟨S_, .f32⟩
  | .hbm, ⟨46, _⟩ => ⟨S64x12x256x256, .f32⟩
  | .hbm, ⟨47, _⟩ => ⟨S64x12x256x256, .f32⟩
  | .hbm, ⟨48, _⟩ => ⟨S1x12x256x256, .f32⟩
  | .hbm, ⟨49, _⟩ => ⟨S64x12x256x256, .f32⟩
  | .hbm, ⟨50, _⟩ => ⟨S64x12x256x256, .f32⟩
  | .hbm, ⟨51, _⟩ => ⟨S_, .f32⟩
  | .hbm, ⟨52, _⟩ => ⟨S64x12x256, .f32⟩
  | .hbm, ⟨53, _⟩ => ⟨S_, .f32⟩
  | .hbm, ⟨54, _⟩ => ⟨S64x12x256, .f32⟩
  | .hbm, ⟨55, _⟩ => ⟨S64x12x256, .f32⟩
  | .hbm, ⟨56, _⟩ => ⟨S64x12x256x1, .f32⟩
  | .hbm, ⟨57, _⟩ => ⟨S64x12x256x256, .f32⟩
  | .hbm, ⟨58, _⟩ => ⟨S64x12x256x256, .f32⟩
  | .hbm, ⟨59, _⟩ => ⟨S64x12x256x256, .f32⟩
  | .hbm, ⟨60, _⟩ => ⟨S_, .f32⟩
  | .hbm, ⟨61, _⟩ => ⟨S64x12x256, .f32⟩
  | .hbm, ⟨62, _⟩ => ⟨S64x12x256x1, .f32⟩
  | .hbm, ⟨63, _⟩ => ⟨S64x12x256x256, .f32⟩
  | .hbm, ⟨64, _⟩ => ⟨S64x12x256x256, .f32⟩
  | .hbm, ⟨65, _⟩ => ⟨S64x12x256x256, .f32⟩
  | .hbm, ⟨66, _⟩ => ⟨S64x256x12x256, .f32⟩
  | .hbm, ⟨67, _⟩ => ⟨S64x256x3072, .f32⟩
  | .hbm, ⟨68, _⟩ => ⟨S_, .f32⟩
  | .hbm, ⟨69, _⟩ => ⟨S64x256x3072, .f32⟩
  | .hbm, ⟨70, _⟩ => ⟨S64x256x3072, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S64x256x3072, .f32⟩
  | .hbm, ⟨75, _⟩ => ⟨S64x256x3072, .f32⟩
  | .hbm, ⟨76, _⟩ => ⟨S_, .f32⟩
  | .hbm, ⟨77, _⟩ => ⟨S64x256x3072, .f32⟩
  | .hbm, ⟨78, _⟩ => ⟨S64x256x3072, .f32⟩
  | .hbm, ⟨79, _⟩ => ⟨S64x256x3072, .f32⟩
  | .hbm, ⟨80, _⟩ => ⟨S_, .f32⟩
  | .hbm, ⟨81, _⟩ => ⟨S64x256x3072, .f32⟩
  | .hbm, ⟨82, _⟩ => ⟨S64x256x3072, .f32⟩
  | .hbm, ⟨83, _⟩ => ⟨S64x256x768, .f32⟩
  | .hbm, ⟨84, _⟩ => ⟨S1x1x768, .f32⟩
  | .hbm, ⟨85, _⟩ => ⟨S64x256x768, .f32⟩
  | .hbm, ⟨86, _⟩ => ⟨S64x256x768, .f32⟩
  | .hbm, ⟨87, _⟩ => ⟨S_, .f32⟩
  | .hbm, ⟨88, _⟩ => ⟨S768, .f32⟩
  | .hbm, ⟨89, _⟩ => ⟨S768, .f32⟩
  | .hbm, ⟨90, _⟩ => ⟨S768, .f32⟩
  | .hbm, ⟨91, _⟩ => ⟨S768, .f32⟩
  | .hbm, ⟨92, _⟩ => ⟨S1x1x768, .f32⟩
  | .hbm, ⟨93, _⟩ => ⟨S64x256x768, .f32⟩
  | .hbm, ⟨94, _⟩ => ⟨S64x256x768, .f32⟩
  | .hbm, ⟨95, _⟩ => ⟨S1x1x768, .f32⟩
  | .hbm, ⟨96, _⟩ => ⟨S64x256x768, .f32⟩
  | .hbm, ⟨97, _⟩ => ⟨S64x256x768, .f32⟩
  | _, _ => ⟨S64x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  bcast_S4608_S1x1x4608_2 : S4608.BroadcastsInDim S1x1x4608 (![2] : Fin 1 → Fin S1x1x4608.rank)
  bcast_S1x1x4608_S64x256x4608_0_1_2 : S1x1x4608.BroadcastsInDim S64x256x4608 (![0, 1, 2] : Fin 3 → Fin S64x256x4608.rank)
  bcast_S_S4608 : S_.BroadcastsInDim S4608 (![] : Fin 0 → Fin S4608.rank)
  shapeCasts_S64x256x4608_S64x256x12x384 : S64x256x4608.ShapeCasts S64x256x12x384
  slices_S64x256x12x384_S64x256x12x64_0_0_0_0 : S64x256x12x384.Slices ![0, 0, 0, 0] S64x256x12x64
  transposes_S64x256x12x64_S64x12x256x64_0_2_1_3 : S64x256x12x64.Transposes [0, 2, 1, 3] S64x12x256x64
  slices_S64x256x12x384_S64x256x12x64_0_0_0_64 : S64x256x12x384.Slices ![0, 0, 0, 64] S64x256x12x64
  slices_S64x256x12x384_S64x256x12x256_0_0_0_128 : S64x256x12x384.Slices ![0, 0, 0, 128] S64x256x12x256
  transposes_S64x256x12x256_S64x12x256x256_0_2_1_3 : S64x256x12x256.Transposes [0, 2, 1, 3] S64x12x256x256
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S64x12x256x256 : S_.BroadcastsInDim S64x12x256x256 (![] : Fin 0 → Fin S64x12x256x256.rank)
  bcast_S12x256x256_S1x12x256x256_1_2_3 : S12x256x256.BroadcastsInDim S1x12x256x256 (![1, 2, 3] : Fin 3 → Fin S1x12x256x256.rank)
  bcast_S1x12x256x256_S64x12x256x256_0_1_2_3 : S1x12x256x256.BroadcastsInDim S64x12x256x256 (![0, 1, 2, 3] : Fin 4 → Fin S64x12x256x256.rank)
  reducesTo_S64x12x256x256_S64x12x256_d3 : S64x12x256x256.ReducesTo [3] S64x12x256
  h_S_ : 0 < S_.numel
  bcast_S_S64x12x256 : S_.BroadcastsInDim S64x12x256 (![] : Fin 0 → Fin S64x12x256.rank)
  bcast_S64x12x256_S64x12x256x1_0_1_2 : S64x12x256.BroadcastsInDim S64x12x256x1 (![0, 1, 2] : Fin 3 → Fin S64x12x256x1.rank)
  bcast_S64x12x256x1_S64x12x256x256_0_1_2_3 : S64x12x256x1.BroadcastsInDim S64x12x256x256 (![0, 1, 2, 3] : Fin 4 → Fin S64x12x256x256.rank)
  transposes_S64x12x256x256_S64x256x12x256_0_2_1_3 : S64x12x256x256.Transposes [0, 2, 1, 3] S64x256x12x256
  shapeCasts_S64x256x12x256_S64x256x3072 : S64x256x12x256.ShapeCasts S64x256x3072
  bcast_S_S64x256x3072 : S_.BroadcastsInDim S64x256x3072 (![] : Fin 0 → Fin S64x256x3072.rank)
  bcast_S768_S1x1x768_2 : S768.BroadcastsInDim S1x1x768 (![2] : Fin 1 → Fin S1x1x768.rank)
  bcast_S1x1x768_S64x256x768_0_1_2 : S1x1x768.BroadcastsInDim S64x256x768 (![0, 1, 2] : Fin 3 → Fin S64x256x768.rank)
  bcast_S_S768 : S_.BroadcastsInDim S768 (![] : Fin 0 → Fin S768.rank)
  dot_S64x256x768_S4608x768_S64x256x4608_2_1_01_0_n_n_wf : DotDims.WF S64x256x768 S4608x768 S64x256x4608 [2] [1] [0, 1] [0] [] []
  dot_S64x12x256x64_S64x12x256x64_S64x12x256x256_3_3_2_2_01_01_wf : DotDims.WF S64x12x256x64 S64x12x256x64 S64x12x256x256 [3] [3] [2] [2] [0, 1] [0, 1]
  gather_S12x256_S256x256x1_S12x256x256_0_1_n_n_1_2_121_wf : GatherDims.WF S12x256 S256x256x1 S12x256x256 [0] [1] [] [1] [] 2 ![12, 1]
  dot_S64x12x256x256_S64x12x256x256_S64x12x256x256_3_2_2_3_01_01_wf : DotDims.WF S64x12x256x256 S64x12x256x256 S64x12x256x256 [3] [2] [2] [3] [0, 1] [0, 1]
  dot_S64x256x3072_S768x3072_S64x256x768_2_1_01_0_n_n_wf : DotDims.WF S64x256x3072 S768x3072 S64x256x768 [2] [1] [0, 1] [0] [] []

variable [Facts₀]

def dot_S64x256x768_S4608x768_S64x256x4608_2_1_01_0_n_n : DotDims S64x256x768 S4608x768 S64x256x4608 where
  lhsContracting := [2]
  rhsContracting := [1]
  lhsNonContracting := [0, 1]
  rhsNonContracting := [0]
  lhsBatch := []
  rhsBatch := []
  wf := dot_S64x256x768_S4608x768_S64x256x4608_2_1_01_0_n_n_wf
def dot_S64x12x256x64_S64x12x256x64_S64x12x256x256_3_3_2_2_01_01 : DotDims S64x12x256x64 S64x12x256x64 S64x12x256x256 where
  lhsContracting := [3]
  rhsContracting := [3]
  lhsNonContracting := [2]
  rhsNonContracting := [2]
  lhsBatch := [0, 1]
  rhsBatch := [0, 1]
  wf := dot_S64x12x256x64_S64x12x256x64_S64x12x256x256_3_3_2_2_01_01_wf
def gather_S12x256_S256x256x1_S12x256x256_0_1_n_n_1_2_121 : GatherDims S12x256 S256x256x1 S12x256x256 where
  offsetDims := [0]
  collapsedSliceDims := [1]
  operandBatchingDims := []
  startIndicesBatchingDims := []
  startIndexMap := [1]
  indexVectorDim := 2
  sliceSizes := ![12, 1]
  wf := gather_S12x256_S256x256x1_S12x256x256_0_1_n_n_1_2_121_wf
def dot_S64x12x256x256_S64x12x256x256_S64x12x256x256_3_2_2_3_01_01 : DotDims S64x12x256x256 S64x12x256x256 S64x12x256x256 where
  lhsContracting := [3]
  rhsContracting := [2]
  lhsNonContracting := [2]
  rhsNonContracting := [3]
  lhsBatch := [0, 1]
  rhsBatch := [0, 1]
  wf := dot_S64x12x256x256_S64x12x256x256_S64x12x256x256_3_2_2_3_01_01_wf
def dot_S64x256x3072_S768x3072_S64x256x768_2_1_01_0_n_n : DotDims S64x256x3072 S768x3072 S64x256x768 where
  lhsContracting := [2]
  rhsContracting := [1]
  lhsNonContracting := [0, 1]
  rhsNonContracting := [0]
  lhsBatch := []
  rhsBatch := []
  wf := dot_S64x256x3072_S768x3072_S64x256x768_2_1_01_0_n_n_wf

class Facts : Prop extends Facts₀ where

variable [Facts]
-- ==== Proof.LibBnLaw.lean ====
/-
  Folding an inference-mode batch normalisation into one multiply-add, on the extended reals.

  With a real scale `s`, a real running mean `μ` and a real shift `β`,
  `y · s + (β − μ · s) = (y − μ) · s + β` for EVERY extended real `y`: for a real `y` this is
  distributivity in ℝ; for `y = ±∞` both sides are `±∞ · s` plus a real, and `(±∞) · 0 = 0` on both sides.
  Also: the reciprocal square root of a positive real is a real.
-/
import Mathlib.Data.EReal.Basic
import Mathlib.Data.EReal.Operations
import Idealize.ShloMosaic.PureOps.Ideal

namespace BnLaw

/-- `y · s + (β − μ · s) = (y − μ) · s + β` on the extended reals, for real `s`, `β`, `μ` and any `y`. -/
theorem fold (y : EReal) (s β μ : ℝ) :
    y * (s : EReal) + ((β : EReal) - (μ : EReal) * (s : EReal)) = (y - (μ : EReal)) * (s : EReal) + (β : EReal) := by
  induction y using EReal.rec with
  | coe a =>
    rw [← EReal.coe_mul, ← EReal.coe_mul, ← EReal.coe_sub, ← EReal.coe_sub, ← EReal.coe_add, ← EReal.coe_mul, ← EReal.coe_add]
    congr 1; ring
  | bot =>
    rw [EReal.bot_sub, ← EReal.coe_mul, ← EReal.coe_sub]
    rcases lt_trichotomy s 0 with h | h | h
    · rw [EReal.bot_mul_coe_of_neg h, EReal.top_add_coe, EReal.top_add_coe]
    · subst h; simp
    · rw [EReal.bot_mul_coe_of_pos h, EReal.bot_add, EReal.bot_add]
  | top =>
    rw [EReal.top_sub_coe, ← EReal.coe_mul, ← EReal.coe_sub]
    rcases lt_trichotomy s 0 with h | h | h
    · rw [EReal.top_mul_coe_of_neg h, EReal.bot_add, EReal.bot_add]
    · subst h; simp
    · rw [EReal.top_mul_coe_of_pos h, EReal.top_add_coe, EReal.top_add_coe]

/-- The reciprocal square root of a positive real is the real `(√r)⁻¹`. -/
theorem rsqrt_pos {r : ℝ} (h : 0 < r) :
    Idealize.ShloMosaic.Ideal.rsqrt (r : EReal) = (((Real.sqrt r)⁻¹ : ℝ) : EReal) := by
  rw [Idealize.ShloMosaic.Ideal.rsqrt_coe, if_neg (not_lt.2 h.le), if_neg h.ne']

end BnLaw
-- ==== Proof.Spec.lean ====
/-
  The attention block as ONE function of the argument arrays, entry by entry, on the extended reals.

  For one batch element, with `Q : [256, 4608]` the normalised QKV projection of its 256 tokens and head `h` of twelve
  owning columns `384 h … 384 h + 383` of it (64 query columns, 64 key columns, 256 value columns):
    logit h n k = (∑ d, Q n (384 h + d) · Q k (384 h + 64 + d)) · (1/8) + Bias h n k
    prob  h n k = exp (logit h n k − max_k' logit h n k') / ∑ k', exp (logit h n k' − max …)
    att   h n d = ∑ k, prob h n k · Q k (384 h + 128 + d)
    act   n j   = hardswish (att (j / 256) n (j % 256))                (j < 3072: the heads side by side)
    proj  n c   = ∑ j, act n j · W2 c j.
  The two programs differ only in how they spell the two inference-mode batch normalisations — `(y − μ) · s + β` against
  `y · s + (β − μ · s)` with `s = γ · rsqrt (var + ε)` — and these agree on every extended real `y` once `s`, `μ`, `β`
  are real (LibBnLaw), which finite `γ, β, μ` and a finite variance `≥ 0` give.
-/
import Idealize.ShloMosaic.PureOps.Ideal
import Idealize.ShloMosaic.PureOps.Ideal.Laws
import proofs.«110599_j46901042872659_2_alg».proof.Proof.LibBnLaw

noncomputable section

namespace AttnSpec

open Idealize.ShloMosaic

/-- The float literals of both programs, kept as the words they are printed with. -/
abbrev eps : EReal := Ideal.ofBits .f32 0x3727C5AC#32
abbrev c8 : EReal := Ideal.ofBits .f32 0x3E000000#32
abbrev c3 : EReal := Ideal.ofBits .f32 0x40400000#32
abbrev c0 : EReal := Ideal.ofBits .f32 0x00000000#32
abbrev c6 : EReal := Ideal.ofBits .f32 0x40C00000#32
abbrev c16 : EReal := Ideal.ofBits .f32 0x3E2AAAAB#32
abbrev ninf : EReal := Ideal.ofBits .f32 0xFF800000#32

/-- Head `h`'s query, key and value columns of the 4608 projected columns. -/
def qcol (h : Fin 12) (d : Fin 64) : Fin 4608 := ⟨384 * h.val + d.val, by omega⟩
def kcol (h : Fin 12) (d : Fin 64) : Fin 4608 := ⟨384 * h.val + 64 + d.val, by omega⟩
def vcol (h : Fin 12) (d : Fin 256) : Fin 4608 := ⟨384 * h.val + 128 + d.val, by omega⟩
/-- Column `j` of the 3072 concatenated head outputs belongs to head `j / 256`, at `j % 256`. -/
def hcol (j : Fin 3072) : Fin 12 := ⟨j.val / 256, by omega⟩
def dcol (j : Fin 3072) : Fin 256 := ⟨j.val % 256, by omega⟩

section
variable (Q : Fin 256 → Fin 4608 → EReal) (Bias : Fin 12 → Fin 256 → Fin 256 → EReal)

/-- Scaled query–key scores plus the relative-position bias. -/
def logit (h : Fin 12) (n k : Fin 256) : EReal :=
  (∑ d : Fin 64, Q n (qcol h d) * Q k (kcol h d)) * c8 + Bias h n k

/-- A row's maximum, folded from `-∞`. -/
def rmax (a : Fin 256 → EReal) : EReal := (Finset.univ : Finset (Fin 256)).fold max ninf a

/-- The shifted exponentials of a row of scores. -/
def ex (h : Fin 12) (n k : Fin 256) : EReal := Ideal.exp (logit Q Bias h n k - rmax (fun k' => logit Q Bias h n k'))

/-- The row softmax. -/
def prob (h : Fin 12) (n k : Fin 256) : EReal := Ideal.div (ex Q Bias h n k) (∑ k' : Fin 256, ex Q Bias h n k')

/-- Attention output of head `h`: probabilities times values. -/
def att (h : Fin 12) (n d : Fin 256) : EReal := ∑ k : Fin 256, prob Q Bias h n k * Q k (vcol h d)

/-- `x · clip (x + 3, 0, 6) · (1/6)`, with the programs' literals. -/
def hsw (x : EReal) : EReal := x * min c6 (max c0 (x + c3)) * c16

/-- The activated, concatenated head outputs. -/
def act (n : Fin 256) (j : Fin 3072) : EReal := hsw (att Q Bias (hcol j) n (dcol j))

/-- The output projection, before its normalisation. -/
def proj (W2 : Fin 768 → Fin 3072 → EReal) (n : Fin 256) (c : Fin 768) : EReal := ∑ j : Fin 3072, act Q Bias n j * W2 c j
end

/-- The normalisation's scale `γ · rsqrt (var + ε)`. -/
def scale (g v : EReal) : EReal := g * Ideal.rsqrt (v + eps)
/-- The reference's spelling of the normalisation, and the kernel's. -/
def bnR (y m s b : EReal) : EReal := (y - m) * s + b
def bnK (y m s b : EReal) : EReal := y * s + (b - m * s)

section
variable {n : Nat} (X : Fin 256 → Fin 768 → EReal) (W1 : Fin 4608 → Fin 768 → EReal) (G1 B1 M1 V1 : Fin 4608 → EReal)

/-- The normalised QKV projection of one batch element, in the reference's spelling and in the kernel's. -/
def qkvR (n : Fin 256) (j : Fin 4608) : EReal := bnR (∑ k : Fin 768, X n k * W1 j k) (M1 j) (scale (G1 j) (V1 j)) (B1 j)
def qkvK (n : Fin 256) (j : Fin 4608) : EReal := bnK (∑ k : Fin 768, X n k * W1 j k) (M1 j) (scale (G1 j) (V1 j)) (B1 j)
end

section
variable (X : Fin 256 → Fin 768 → EReal) (W1 : Fin 4608 → Fin 768 → EReal) (G1 B1 M1 V1 : Fin 4608 → EReal)
  (Bias : Fin 12 → Fin 256 → Fin 256 → EReal) (W2 : Fin 768 → Fin 3072 → EReal) (G2 B2 M2 V2 : Fin 768 → EReal)

/-- The whole block for one batch element, at token `n` and channel `c`: the reference's spelling, -/
def outR (n : Fin 256) (c : Fin 768) : EReal :=
  bnR (proj (qkvR X W1 G1 B1 M1 V1) Bias W2 n c) (M2 c) (scale (G2 c) (V2 c)) (B2 c)
/-- and the kernel's. -/
def outK (n : Fin 256) (c : Fin 768) : EReal :=
  bnK (proj (qkvK X W1 G1 B1 M1 V1) Bias W2 n c) (M2 c) (scale (G2 c) (V2 c)) (B2 c)
end

/-- The literal ε is a positive real. -/
theorem eps_pos : ∃ e : ℝ, 0 < e ∧ eps = (e : EReal) := by
  refine ⟨_, ?_, by simp [eps, Ideal.ofBits, Ideal.ieee]; rfl⟩
  norm_num

/-- A finite scale parameter and a finite variance `≥ 0` give a real scale. -/
theorem scale_real {g v : EReal} (hg : ∃ r : ℝ, g = r) (hv : ∃ r : ℝ, 0 ≤ r ∧ v = r) : ∃ s : ℝ, scale g v = s := by
  obtain ⟨a, rfl⟩ := hg
  obtain ⟨r, hr, rfl⟩ := hv
  obtain ⟨e, he, hee⟩ := eps_pos
  refine ⟨a * (Real.sqrt (r + e))⁻¹, ?_⟩
  unfold scale
  rw [hee, ← EReal.coe_add, BnLaw.rsqrt_pos (by linarith), ← EReal.coe_mul]

/-- The two spellings of the normalisation agree for real scale, mean and shift, at every extended real. -/
theorem bnK_eq_bnR (y : EReal) {m s b : EReal} (hm : ∃ r : ℝ, m = r) (hs : ∃ r : ℝ, s = r) (hb : ∃ r : ℝ, b = r) :
    bnK y m s b = bnR y m s b := by
  obtain ⟨m, rfl⟩ := hm; obtain ⟨s, rfl⟩ := hs; obtain ⟨b, rfl⟩ := hb
  exact BnLaw.fold y s b m

/-- So the kernel's block is the reference's, for finite normalisation parameters and variances `≥ 0`. -/
theorem outK_eq_outR (X : Fin 256 → Fin 768 → EReal) (W1 : Fin 4608 → Fin 768 → EReal) (G1 B1 M1 V1 : Fin 4608 → EReal)
    (Bias : Fin 12 → Fin 256 → Fin 256 → EReal) (W2 : Fin 768 → Fin 3072 → EReal) (G2 B2 M2 V2 : Fin 768 → EReal)
    (hG1 : ∀ j, ∃ r : ℝ, G1 j = r) (hB1 : ∀ j, ∃ r : ℝ, B1 j = r) (hM1 : ∀ j, ∃ r : ℝ, M1 j = r)
    (hV1 : ∀ j, ∃ r : ℝ, 0 ≤ r ∧ V1 j = r)
    (hG2 : ∀ c, ∃ r : ℝ, G2 c = r) (hB2 : ∀ c, ∃ r : ℝ, B2 c = r) (hM2 : ∀ c, ∃ r : ℝ, M2 c = r)
    (hV2 : ∀ c, ∃ r : ℝ, 0 ≤ r ∧ V2 c = r) (n : Fin 256) (c : Fin 768) :
    outK X W1 G1 B1 M1 V1 Bias W2 G2 B2 M2 V2 n c = outR X W1 G1 B1 M1 V1 Bias W2 G2 B2 M2 V2 n c := by
  have hq : qkvK X W1 G1 B1 M1 V1 = qkvR X W1 G1 B1 M1 V1 := by
    funext n j
    exact bnK_eq_bnR _ (hM1 j) (scale_real (hG1 j) (hV1 j)) (hB1 j)
  unfold outK outR
  rw [hq]
  exact bnK_eq_bnR _ (hM2 c) (scale_real (hG2 c) (hV2 c)) (hB2 c)

end AttnSpec

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.KMatmul.lean ====
/-
  The four matrix products of the kernel's body, each read at an entry on the extended reals: a product into the zero
  accumulator is the plain sum over the contracted axis.
-/
import proofs.«110599_j46901042872659_2_alg».proof.Proof.Gen.KernelIdeal
import proofs.«110599_j46901042872659_2_alg».proof.Proof.LibPlainMatmul
import Idealize.ShloMosaic.Lib.ValueIdx
import Idealize.ShloMosaic.PureOps.Ideal.Laws

noncomputable section

open scoped BigOperators

namespace Cert.KernelIdeal.KV

open Cert.KernelIdeal Idealize.ShloMosaic Idealize.ShloMosaic.ValueIdx

/-- Entry (p, c) of the 256 x 768 by 768 x 384 product into the zero accumulator: the sum over k of left (p, k) * right (k, c). -/
theorem mm_qkv {φ₁ φ₂ : FTy} (prec : Option ContractPrecision) (l : FVec Ideal S256x768 φ₁) (r : FVec Ideal S768x384 φ₂)
    (p : Fin 256) (c : Fin 384) :
    matmul dot_S256x768_S768x384_S256x384_1_0_0_1_n_n prec l r (constant (F := Ideal) S256x384 .f32 0x00000000#32) (ix2 p c)
      = ∑ k : Fin 768, l (ix2 p k) * r (ix2 k c) :=
  Cert.PlainMatmul.matmul_zero_apply dot_S256x768_S768x384_S256x384_1_0_0_1_n_n rfl rfl
    (fun j q => by
      unfold DotDims.lhsIdx
      rw [dif_neg (show ¬(0 : Fin S256x768.rank) ∈ dot_S256x768_S768x384_S256x384_1_0_0_1_n_n.lhsBatch by decide), dif_pos (show (0 : Fin S256x768.rank) ∈ dot_S256x768_S768x384_S256x384_1_0_0_1_n_n.lhsNonContracting by decide)]
      rfl)
    (fun j q => dot_S256x768_S768x384_S256x384_1_0_0_1_n_n.lhsIdx_val_of_single rfl j q)
    (fun j q => dot_S256x768_S768x384_S256x384_1_0_0_1_n_n.rhsIdx_val_of_single rfl j q)
    (fun j q => by
      unfold DotDims.rhsIdx
      rw [dif_neg (show ¬(1 : Fin S768x384.rank) ∈ dot_S256x768_S768x384_S256x384_1_0_0_1_n_n.rhsBatch by decide), dif_pos (show (1 : Fin S768x384.rank) ∈ dot_S256x768_S768x384_S256x384_1_0_0_1_n_n.rhsNonContracting by decide)]
      rfl)
    prec l r p c

/-- Entry (p, c) of the 256 x 64 by 64 x 256 product into the zero accumulator: the sum over k of left (p, k) * right (k, c). -/
theorem mm_scores {φ₁ φ₂ : FTy} (prec : Option ContractPrecision) (l : FVec Ideal S256x64 φ₁) (r : FVec Ideal S64x256 φ₂)
    (p : Fin 256) (c : Fin 256) :
    matmul dot_S256x64_S64x256_S256x256_1_0_0_1_n_n prec l r (constant (F := Ideal) S256x256 .f32 0x00000000#32) (ix2 p c)
      = ∑ k : Fin 64, l (ix2 p k) * r (ix2 k c) :=
  Cert.PlainMatmul.matmul_zero_apply dot_S256x64_S64x256_S256x256_1_0_0_1_n_n rfl rfl
    (fun j q => by
      unfold DotDims.lhsIdx
      rw [dif_neg (show ¬(0 : Fin S256x64.rank) ∈ dot_S256x64_S64x256_S256x256_1_0_0_1_n_n.lhsBatch by decide), dif_pos (show (0 : Fin S256x64.rank) ∈ dot_S256x64_S64x256_S256x256_1_0_0_1_n_n.lhsNonContracting by decide)]
      rfl)
    (fun j q => dot_S256x64_S64x256_S256x256_1_0_0_1_n_n.lhsIdx_val_of_single rfl j q)
    (fun j q => dot_S256x64_S64x256_S256x256_1_0_0_1_n_n.rhsIdx_val_of_single rfl j q)
    (fun j q => by
      unfold DotDims.rhsIdx
      rw [dif_neg (show ¬(1 : Fin S64x256.rank) ∈ dot_S256x64_S64x256_S256x256_1_0_0_1_n_n.rhsBatch by decide), dif_pos (show (1 : Fin S64x256.rank) ∈ dot_S256x64_S64x256_S256x256_1_0_0_1_n_n.rhsNonContracting by decide)]
      rfl)
    prec l r p c

/-- Entry (p, c) of the 256 x 256 by 256 x 256 product into the zero accumulator: the sum over k of left (p, k) * right (k, c). -/
theorem mm_values {φ₁ φ₂ : FTy} (prec : Option ContractPrecision) (l : FVec Ideal S256x256 φ₁) (r : FVec Ideal S256x256 φ₂)
    (p : Fin 256) (c : Fin 256) :
    matmul dot_S256x256_S256x256_S256x256_1_0_0_1_n_n prec l r (constant (F := Ideal) S256x256 .f32 0x00000000#32) (ix2 p c)
      = ∑ k : Fin 256, l (ix2 p k) * r (ix2 k c) :=
  Cert.PlainMatmul.matmul_zero_apply dot_S256x256_S256x256_S256x256_1_0_0_1_n_n rfl rfl
    (fun j q => by
      unfold DotDims.lhsIdx
      rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
      rfl)
    (fun j q => dot_S256x256_S256x256_S256x256_1_0_0_1_n_n.lhsIdx_val_of_single rfl j q)
    (fun j q => dot_S256x256_S256x256_S256x256_1_0_0_1_n_n.rhsIdx_val_of_single rfl j q)
    (fun j q => by
      unfold DotDims.rhsIdx
      rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
      rfl)
    prec l r p c

/-- Entry (p, c) of the 256 x 3072 by 3072 x 768 product into the zero accumulator: the sum over k of left (p, k) * right (k, c). -/
theorem mm_proj {φ₁ φ₂ : FTy} (prec : Option ContractPrecision) (l : FVec Ideal S256x3072 φ₁) (r : FVec Ideal S3072x768 φ₂)
    (p : Fin 256) (c : Fin 768) :
    matmul dot_S256x3072_S3072x768_S256x768_1_0_0_1_n_n prec l r (constant (F := Ideal) S256x768 .f32 0x00000000#32) (ix2 p c)
      = ∑ k : Fin 3072, l (ix2 p k) * r (ix2 k c) :=
  Cert.PlainMatmul.matmul_zero_apply dot_S256x3072_S3072x768_S256x768_1_0_0_1_n_n rfl rfl
    (fun j q => by
      unfold DotDims.lhsIdx
      rw [dif_neg (show ¬(0 : Fin S256x3072.rank) ∈ dot_S256x3072_S3072x768_S256x768_1_0_0_1_n_n.lhsBatch by decide), dif_pos (show (0 : Fin S256x3072.rank) ∈ dot_S256x3072_S3072x768_S256x768_1_0_0_1_n_n.lhsNonContracting by decide)]
      rfl)
    (fun j q => dot_S256x3072_S3072x768_S256x768_1_0_0_1_n_n.lhsIdx_val_of_single rfl j q)
    (fun j q => dot_S256x3072_S3072x768_S256x768_1_0_0_1_n_n.rhsIdx_val_of_single rfl j q)
    (fun j q => by
      unfold DotDims.rhsIdx
      rw [dif_neg (show ¬(1 : Fin S3072x768.rank) ∈ dot_S256x3072_S3072x768_S256x768_1_0_0_1_n_n.rhsBatch by decide), dif_pos (show (1 : Fin S3072x768.rank) ∈ dot_S256x3072_S3072x768_S256x768_1_0_0_1_n_n.rhsNonContracting by decide)]
      rfl)
    prec l r p c

end Cert.KernelIdeal.KV

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibRowSoftmax.lean ====
/-
  A row-wise softmax on the vector unit, read at explicit coordinates of a `[B, n]` array.

  * the maximum over the lanes of row `p`, taken from the value the accumulator's word denotes, is the
    greatest of that value and the row's `n` entries;
  * the softmax as a kernel spells it with `keepdims` reductions — subtract the row's maximum (the
    maxima cast to a column and broadcast back along the lanes), exponentiate, divide by the row's sum of
    exponentials (cast and broadcast the same way) — holds at `(p, q)` the share
    `exp (s q - M) / ∑ k, exp (s k - M)` of row `p`, where `s` is the row and `M` its maximum.

  Statements about indices and extended reals only; nothing here mentions a program.
-/
import Idealize.ShloMosaic.PureOps.Ideal
import Idealize.ShloMosaic.PureOps.Ideal.Laws
import Idealize.ShloMosaic.Lib.ValueIdx
import Idealize.ShloMosaic.Lib.Pipeline.Value
import proofs.«110599_j46901042872659_2_alg».proof.Proof.LibRowLayout

noncomputable section

open scoped BigOperators

namespace Cert.RowSoftmax

open Idealize.ShloMosaic Idealize.ShloMosaic.ValueIdx Cert.RowLayout

/-- The greatest of `lo` and a row's entries. -/
def rowMax {n : Nat} (lo : EReal) (s : Fin n → EReal) : EReal := (Finset.univ : Finset (Fin n)).fold max lo s

/-- Entry `q`'s softmax share of its row: its exponential, shifted by the row's maximum, over the sum of
    the row's shifted exponentials. -/
def share {n : Nat} (lo : EReal) (s : Fin n → EReal) (q : Fin n) : EReal :=
  Ideal.div (Ideal.exp (s q - rowMax lo s)) (∑ k : Fin n, Ideal.exp (s k - rowMax lo s))

/-- The vector unit's maximum over the lanes is, in row `p`, the greatest of the accumulator's value and the
    row's `n` entries. -/
theorem laneMax_apply {B n : Nat} (v : FVec Ideal (⟨2, ![B, n]⟩ : Shape) .f32) (acc : BitVec 32)
    (h : Shape.Reduces (⟨2, ![B, n]⟩ : Shape) [(1 : Fin 2)] (⟨1, ![B]⟩ : Shape)) (hφ : FKind.Formats .f32)
    (hacc : acc = FKind.maximumf.neutral .f32 hφ) (p : Fin B) :
    multiReduction .maximumf [(1 : Fin 2)] (⟨1, ![B]⟩ : Shape) v acc h hφ hacc (ix1 p)
      = rowMax (Ideal.ofBits .f32 acc) (fun k : Fin n => v (ix2 p k)) := by
  refine (Ideal.multiReduction_maximumf_single v acc h hφ hacc (ix1 p)).trans ?_
  unfold rowMax
  refine Finset.fold_congr fun k _ => ?_
  exact congrArg v (funext fun a => Fin.ext (by match a with | ⟨0, _⟩ => rfl | ⟨1, _⟩ => rfl))

/-- THE ROW SOFTMAX with `keepdims` reductions: at `(p, q)` it is entry `q`'s share of row `p`. -/
theorem rowSoftmax_apply {B n : Nat} (S : FVec Ideal (⟨2, ![B, n]⟩ : Shape) .f32) (acc : BitVec 32)
    (hred : Shape.Reduces (⟨2, ![B, n]⟩ : Shape) [(1 : Fin 2)] (⟨1, ![B]⟩ : Shape))
    (hφM : FKind.Formats .f32) (haccM : acc = FKind.maximumf.neutral .f32 hφM)
    (hφA : FKind.Formats .f32) (haccA : (0x00000000#32 : BitVec 32) = FKind.add.neutral .f32 hφA)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf
        (exp (subf S (broadcastTo (⟨2, ![B, n]⟩ : Shape)
          (shapeCast (⟨2, ![B, 1]⟩ : Shape) (multiReduction .maximumf [(1 : Fin 2)] (⟨1, ![B]⟩ : Shape) S acc hred hφM haccM) hcast) hbc)))
        (broadcastTo (⟨2, ![B, n]⟩ : Shape)
          (shapeCast (⟨2, ![B, 1]⟩ : Shape)
            (multiReduction .add [(1 : Fin 2)] (⟨1, ![B]⟩ : Shape)
              (exp (subf S (broadcastTo (⟨2, ![B, n]⟩ : Shape)
                (shapeCast (⟨2, ![B, 1]⟩ : Shape) (multiReduction .maximumf [(1 : Fin 2)] (⟨1, ![B]⟩ : Shape) S acc hred hφM haccM) hcast) hbc)))
              0x00000000#32 hred hφA haccA) hcast) hbc) (ix2 p q)
      = share (Ideal.ofBits .f32 acc) (fun k : Fin n => S (ix2 p k)) q := by
  have hM : ∀ k : Fin n, broadcastTo (⟨2, ![B, n]⟩ : Shape)
        (shapeCast (⟨2, ![B, 1]⟩ : Shape) (multiReduction .maximumf [(1 : Fin 2)] (⟨1, ![B]⟩ : Shape) S acc hred hφM haccM) hcast) hbc (ix2 p k)
      = rowMax (Ideal.ofBits .f32 acc) (fun k : Fin n => S (ix2 p k)) := fun k =>
    (bcastCol_apply _ hbc p k).trans ((castCol_apply _ hcast p).trans (laneMax_apply S acc hred hφM haccM p))
  have hE : ∀ k : Fin n, (exp (subf S (broadcastTo (⟨2, ![B, n]⟩ : Shape)
        (shapeCast (⟨2, ![B, 1]⟩ : Shape) (multiReduction .maximumf [(1 : Fin 2)] (⟨1, ![B]⟩ : Shape) S acc hred hφM haccM) hcast) hbc))
        : FVec Ideal (⟨2, ![B, n]⟩ : Shape) .f32) (ix2 p k)
      = Ideal.exp (S (ix2 p k) - rowMax (Ideal.ofBits .f32 acc) (fun k : Fin n => S (ix2 p k))) := fun k =>
    congrArg (fun z => Ideal.exp (S (ix2 p k) - z)) (hM k)
  refine (rowShare_apply _ hred hφA haccA hcast hbc p q).trans ?_
  unfold share
  rw [hE q]
  exact congrArg _ (Finset.sum_congr rfl fun k _ => hE k)

end Cert.RowSoftmax

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.KHead.lean ====
/-
  One attention head of the kernel's body, as a function of the head's normalised [256, 384] projection block `Y`
  (64 query columns, 64 key columns, 256 value columns) and the head's [1, 256, 256] bias block, read at an entry on
  the extended reals:
    scores (n, k) = (∑ d, Y (n, d) · Y (k, 64 + d)) · (1/8) + bias (0, n, k),
    the row softmax of the scores, times the value columns, through hardswish.
  The twelve unrolled heads of the body are this one function of the blocks they load.
-/
import proofs.«110599_j46901042872659_2_alg».proof.Proof.Gen.KernelIdeal.Skeleton
import proofs.«110599_j46901042872659_2_alg».proof.Proof.Spec
import proofs.«110599_j46901042872659_2_alg».proof.Proof.KMatmul
import proofs.«110599_j46901042872659_2_alg».proof.Proof.LibRowSoftmax
import proofs.«110599_j46901042872659_2_alg».proof.Proof.LibRowBias
import Idealize.ShloMosaic.Lib.ValueIdx
import Idealize.ShloMosaic.Lib.Pipeline.Value
import Idealize.ShloMosaic.Lib.ValueLayout

noncomputable section

open scoped BigOperators

namespace Cert.KernelIdeal.KV

open Cert.KernelIdeal Cert.KernelIdeal.Gen Idealize.ShloMosaic Idealize.ShloMosaic.ValueIdx

section Defs
variable {F : FTy → Type} [FloatOps F]

/-- The scores of one head: scaled query–key products plus the bias block. -/
def logitsOf (Yb : FVec F S256x384 .bf16) (bias : Vec F S1x256x256 .f32) : FVec F S256x256 .f32 :=
  addf
    (mulf
      (matmul dot_S256x64_S64x256_S256x256_1_0_0_1_n_n none
        (extractStridedSlice S256x64 ![0, 0] Yb slices_S256x384_o0_0_S256x64)
        (transpose S64x256 [1, 0] (extractStridedSlice S256x64 ![0, 64] Yb slices_S256x384_o0_64_S256x64) transposes_S256x64_p1_0_S64x256)
        (constant S256x256 .f32 0x00000000#32))
      (broadcast S256x256 (Scalar.ofBits .f32 0x3E000000#32)))
    (shapeCast S256x256 bias shapeCasts_S1x256x256_S256x256)

/-- The row softmax with keepdims reductions, as the body spells it. -/
def softOf (S : FVec F S256x256 .f32) : FVec F S256x256 .f32 :=
  divf
    (exp (subf S (broadcastTo S256x256
      (shapeCast S256x1 (multiReduction .maximumf [1] S256 S 0xFF800000#32 reduces_S256x256_S256 (.inl rfl) rfl) shapeCasts_S256_S256x1) broadcasts_S256x1_S256x256)))
    (broadcastTo S256x256
      (shapeCast S256x1
        (multiReduction .add [1] S256
          (exp (subf S (broadcastTo S256x256
            (shapeCast S256x1 (multiReduction .maximumf [1] S256 S 0xFF800000#32 reduces_S256x256_S256 (.inl rfl) rfl) shapeCasts_S256_S256x1) broadcasts_S256x1_S256x256)))
          0x00000000#32 reduces_S256x256_S256 (.inl rfl) rfl) shapeCasts_S256_S256x1) broadcasts_S256x1_S256x256)

/-- Hardswish of an array, as the body spells it. -/
def hswOf (o : FVec F S256x256 .f32) : FVec F S256x256 .f32 :=
  mulf (mulf o (minimumf (broadcast S256x256 (Scalar.ofBits .f32 0x40C00000#32))
      (maximumf (broadcast S256x256 (Scalar.ofBits .f32 0x00000000#32)) (addf o (broadcast S256x256 (Scalar.ofBits .f32 0x40400000#32))))))
    (broadcast S256x256 (Scalar.ofBits .f32 0x3E2AAAAB#32))

/-- One head from its projection block and bias block. -/
def headOf (Yb : FVec F S256x384 .bf16) (bias : Vec F S1x256x256 .f32) : FVec F S256x256 .bf16 :=
  shapeCast S256x256
    (truncf .bf16
      (hswOf (matmul dot_S256x256_S256x256_S256x256_1_0_0_1_n_n none
        (truncf .bf16 (softOf (logitsOf Yb bias)) bitsLt_bf16_f32)
        (extractStridedSlice S256x256 ![0, 128] Yb slices_S256x384_o0_128_S256x256)
        (constant S256x256 .f32 0x00000000#32)))
      bitsLt_bf16_f32)
    shapeCasts_S256x256_S256x256

/-- One head from the blocks the body loads: the projection block is the generated payload of the loads. -/
def headOut (xb : FVec F S256x768 .bf16) (w : Vec F S768x384 .bf16) (s b : Vec F S1x384 .f32) (bias : Vec F S1x256x256 .f32) :
    FVec F S256x256 .bf16 :=
  headOf (k0_pay6 xb w s b) bias

/-- The second head's payloads are this function by unfolding. -/
theorem headOut_eq_pay (xb : FVec F S256x768 .bf16) (w : Vec F S768x384 .bf16) (s b : Vec F S1x384 .f32) (bias : Vec F S1x256x256 .f32) :
    k0_pay9 (k0_pay7 xb w s b) (k0_pay8 xb w s b bias) = headOut xb w s b bias := rfl

end Defs

/-- Column `j'` of a head's 384-column block as a column of that block: query `d`, key `64 + d`, value `128 + d`. -/
def cq (d : Fin 64) : Fin 384 := ⟨d.val, by omega⟩
def ck (d : Fin 64) : Fin 384 := ⟨64 + d.val, by omega⟩
def cv (d : Fin 256) : Fin 384 := ⟨128 + d.val, by omega⟩

/-- The scores at an entry. -/
theorem logitsOf_apply (Yb : FVec Ideal S256x384 .bf16) (bias : Vec Ideal S1x256x256 .f32) (n k : Fin 256) :
    logitsOf Yb bias (ix2 n k)
      = (∑ d : Fin 64, Yb (ix2 n (cq d)) * Yb (ix2 k (ck d))) * AttnSpec.c8 + bias (ix3 (0 : Fin 1) n k) := by
  show (matmul dot_S256x64_S64x256_S256x256_1_0_0_1_n_n none _ _ (constant (F := Ideal) S256x256 .f32 0x00000000#32) (ix2 n k)) * AttnSpec.c8
      + shapeCast S256x256 bias shapeCasts_S1x256x256_S256x256 (ix2 n k) = _
  rw [mm_scores, shapeCast_1ab_ab_apply]
  refine congrArg (fun z => z * AttnSpec.c8 + bias (ix3 (0 : Fin 1) n k)) (Finset.sum_congr rfl fun d _ => ?_)
  refine congrArg₂ (· * ·) ?_ ?_
  · exact extractStridedSlice_apply _ Yb _ (ix2 n d) (ix2 n (cq d)) (fun a => match a with
      | ⟨0, _⟩ => by show n.val = 0 + n.val; omega
      | ⟨1, _⟩ => by show d.val = 0 + d.val; omega)
  · refine (transpose_apply _ _ _ (ix2 d k) (ix2 k d) (fun b => match b with
      | ⟨0, _⟩ => rfl
      | ⟨1, _⟩ => rfl)).trans ?_
    exact extractStridedSlice_apply _ Yb _ (ix2 k d) (ix2 k (ck d)) (fun a => match a with
      | ⟨0, _⟩ => by show k.val = 0 + k.val; omega
      | ⟨1, _⟩ => by show 64 + d.val = 64 + d.val; rfl)

/-- The softmax at an entry: the entry's share of its row. -/
theorem softOf_apply (S : FVec Ideal S256x256 .f32) (n k : Fin 256) :
    softOf S (ix2 n k) = Cert.RowSoftmax.share AttnSpec.ninf (fun k' : Fin 256 => S (ix2 n k')) k :=
  Cert.RowSoftmax.rowSoftmax_apply S 0xFF800000#32 reduces_S256x256_S256 (.inl rfl) rfl (.inl rfl) rfl
    shapeCasts_S256_S256x1 broadcasts_S256x1_S256x256 n k

/-- One head at an entry. -/
theorem headOf_apply (Yb : FVec Ideal S256x384 .bf16) (bias : Vec Ideal S1x256x256 .f32) (n d : Fin 256) :
    headOf Yb bias (ix2 n d)
      = AttnSpec.hsw (∑ k : Fin 256,
          Cert.RowSoftmax.share AttnSpec.ninf (fun k' : Fin 256 => logitsOf Yb bias (ix2 n k')) k * Yb (ix2 k (cv d))) := by
  unfold headOf
  rw [shapeCast_self]
  show AttnSpec.hsw (matmul dot_S256x256_S256x256_S256x256_1_0_0_1_n_n none _ _ (constant (F := Ideal) S256x256 .f32 0x00000000#32) (ix2 n d)) = _
  rw [mm_values]
  refine congrArg AttnSpec.hsw (Finset.sum_congr rfl fun k _ => ?_)
  refine congrArg₂ (· * ·) ?_ ?_
  · exact softOf_apply _ n k
  · exact extractStridedSlice_apply _ Yb _ (ix2 k d) (ix2 k (cv d)) (fun a => match a with
      | ⟨0, _⟩ => by show k.val = 0 + k.val; omega
      | ⟨1, _⟩ => by show 128 + d.val = 128 + d.val; rfl)

/-- The head's 384 columns among the 4608 projected columns. -/
def hc (h : Fin 12) (j : Fin 384) : Fin 4608 := ⟨384 * h.val + j.val, by omega⟩

/-- So a head whose projection block holds head `h`'s columns of `Q` and whose bias block is `Bias h` computes the
    specification's activated attention output of head `h`. -/
theorem headOf_spec (Q : Fin 256 → Fin 4608 → EReal) (Bias : Fin 12 → Fin 256 → Fin 256 → EReal) (h : Fin 12)
    (Yb : FVec Ideal S256x384 .bf16) (bias : Vec Ideal S1x256x256 .f32)
    (hY : ∀ (n : Fin 256) (j : Fin 384), Yb (ix2 n j) = Q n (hc h j))
    (hB : ∀ n k : Fin 256, bias (ix3 (0 : Fin 1) n k) = Bias h n k) (n d : Fin 256) :
    headOf Yb bias (ix2 n d) = AttnSpec.hsw (AttnSpec.att Q Bias h n d) := by
  have hL : ∀ n k : Fin 256, logitsOf Yb bias (ix2 n k) = AttnSpec.logit Q Bias h n k := fun n k => by
    rw [logitsOf_apply, hB]
    unfold AttnSpec.logit
    refine congrArg (fun z => z * AttnSpec.c8 + Bias h n k) (Finset.sum_congr rfl fun d _ => ?_)
    rw [hY, hY]
    refine congrArg₂ (fun a b => Q n a * Q k b) (Fin.ext ?_) (Fin.ext ?_)
    · show 384 * h.val + d.val = 384 * h.val + d.val; rfl
    · show 384 * h.val + (64 + d.val) = 384 * h.val + 64 + d.val; omega
  rw [headOf_apply]
  refine congrArg AttnSpec.hsw ?_
  unfold AttnSpec.att
  refine Finset.sum_congr rfl fun k _ => ?_
  rw [hY]
  refine congrArg₂ (· * ·) ?_ (congrArg (Q k) (Fin.ext ?_))
  · simp only [hL]
    rfl
  · show 384 * h.val + (128 + d.val) = 384 * h.val + 128 + d.val; omega

end Cert.KernelIdeal.KV

end
-- ==== Proof.KPay.lean ====
/-
  Three values of the kernel's body read at an entry on the extended reals: the token block with its unit batch axis
  dropped, a normalised projection `(∑ k, x (n, k) · w (k, j)) · scale j + shift j`, and the normalised output
  projection with its unit batch axis restored.
-/
import proofs.«110599_j46901042872659_2_alg».proof.Proof.Gen.KernelIdeal.Skeleton
import proofs.«110599_j46901042872659_2_alg».proof.Proof.KMatmul
import proofs.«110599_j46901042872659_2_alg».proof.Proof.LibRowBias
import Idealize.ShloMosaic.Lib.ValueIdx
import Idealize.ShloMosaic.Lib.ValueLayout
import Idealize.ShloMosaic.Lib.Pipeline.Value

noncomputable section

open scoped BigOperators

namespace Cert.KernelIdeal.KV

open Cert.KernelIdeal Cert.KernelIdeal.Gen Idealize.ShloMosaic Idealize.ShloMosaic.ValueIdx

/-- The token block `[1, 256, 768]` as a `[256, 768]` matrix: entry `(n, k)` is entry `(0, n, k)`. -/
theorem pay2_apply (x0 : Vec Ideal S1x256x768 .f32) (n : Fin 256) (k : Fin 768) :
    k0_pay2 x0 (ix2 n k) = x0 (ix3 (0 : Fin 1) n k) := by
  unfold k0_pay2
  exact shapeCast_1ab_ab_apply x0 shapeCasts_S1x256x768_S256x768 n k

/-- A normalised projection of 384 columns: the product into zero, times the scale row, plus the shift row. -/
theorem pay6_apply (xb : FVec Ideal S256x768 .bf16) (w : Vec Ideal S768x384 .bf16) (s b : Vec Ideal S1x384 .f32)
    (n : Fin 256) (j : Fin 384) :
    k0_pay6 xb w s b (ix2 n j)
      = (∑ k : Fin 768, xb (ix2 n k) * w (ix2 k j)) * s (ix2 (0 : Fin 1) j) + b (ix2 (0 : Fin 1) j) := by
  unfold k0_pay6
  show matmul dot_S256x768_S768x384_S256x384_1_0_0_1_n_n none xb (shapeCast S768x384 w shapeCasts_S768x384_S768x384)
        (constant (F := Ideal) S256x384 .f32 0x00000000#32) (ix2 n j)
      * broadcastTo S256x384 (shapeCast S1x384 s shapeCasts_S1x384_S1x384) broadcasts_S1x384_S256x384 (ix2 n j)
      + broadcastTo S256x384 (shapeCast S1x384 b shapeCasts_S1x384_S1x384) broadcasts_S1x384_S256x384 (ix2 n j) = _
  rw [shapeCast_self w, shapeCast_self s, shapeCast_self b, mm_qkv, Cert.RowBias.bcastRow_apply, Cert.RowBias.bcastRow_apply]

/-- The normalised output projection with its unit batch axis restored. -/
theorem payOut_apply (sc : Vec Ideal S256x3072 .bf16) (w2 : Vec Ideal S3072x768 .bf16) (s2 b2 : Vec Ideal S1x768 .f32)
    (n : Fin 256) (c : Fin 768) :
    k0_pay1 (k0_pay46 sc w2 s2) b2 (ix3 (0 : Fin 1) n c)
      = (∑ j : Fin 3072, sc (ix2 n j) * w2 (ix2 j c)) * s2 (ix2 (0 : Fin 1) c) + b2 (ix2 (0 : Fin 1) c) := by
  unfold k0_pay1
  refine (shapeCast_ab_1ab_apply _ shapeCasts_S256x768_S1x256x768 (0 : Fin 1) n c).trans ?_
  unfold k0_pay46
  show matmul dot_S256x3072_S3072x768_S256x768_1_0_0_1_n_n none sc (shapeCast S3072x768 w2 shapeCasts_S3072x768_S3072x768)
        (constant (F := Ideal) S256x768 .f32 0x00000000#32) (ix2 n c)
      * broadcastTo S256x768 (shapeCast S1x768 s2 shapeCasts_S1x768_S1x768) broadcasts_S1x768_S256x768 (ix2 n c)
      + broadcastTo S256x768 (shapeCast S1x768 b2 shapeCasts_S1x768_S1x768) broadcasts_S1x768_S256x768 (ix2 n c) = _
  rw [shapeCast_self w2, shapeCast_self s2, shapeCast_self b2, mm_proj, Cert.RowBias.bcastRow_apply, Cert.RowBias.bcastRow_apply]

end Cert.KernelIdeal.KV

end
-- ==== Proof.KScratch.lean ====
/-
  The scratch buffer of the kernel's body after its twelve column-block stores, as ONE function of its index:
  row `n`, column `j` holds the specification's activated attention output `act n j` — head `j / 256` wrote columns
  `256 (j / 256) … 256 (j / 256) + 255` from the blocks it loaded at column offset `384 (j / 256)` of the staged
  weights and normalisation rows and at bias block `j / 256`.
-/
import proofs.«110599_j46901042872659_2_alg».proof.Proof.KHead
import proofs.«110599_j46901042872659_2_alg».proof.Proof.KPay

noncomputable section

open scoped BigOperators

namespace Cert.KernelIdeal.KV

open Cert.KernelIdeal Cert.KernelIdeal.Gen Idealize.ShloMosaic Idealize.ShloMosaic.ValueIdx

/-- The scratch contents the specification predicts. -/
def scratchSpec (Q : Fin 256 → Fin 4608 → EReal) (Bias : Fin 12 → Fin 256 → Fin 256 → EReal) : S256x3072.Idx → EReal :=
  fun y => AttnSpec.act Q Bias ⟨(y 0).val, (y 0).isLt⟩ ⟨(y 1).val, (y 1).isLt⟩

/-- One head's payload, from blocks loaded at column offset `o = 384 h` and bias block `h`, is the specification's
    activated attention output of head `h`, provided the staged arrays give the kernel's normalised projection `Q`. -/
theorem piece_spec (Q : Fin 256 → Fin 4608 → EReal) (Bias : Fin 12 → Fin 256 → Fin 256 → EReal) (h : Fin 12)
    (o : Nat) (ho : o = 384 * h.val) (hh : Nat) (hhh : hh = h.val)
    (xb : FVec Ideal S256x768 .bf16) (x1 : Vec Ideal S768x4608 .bf16) (x2 x3 : Vec Ideal S1x4608 .f32) (x4 : Vec Ideal S12x256x256 .f32)
    (inb1 : ∀ a, (![0, o] : Fin 2 → Nat) a + S768x384.size a ≤ S768x4608.size a)
    (inb2 inb3 : ∀ a, (![0, o] : Fin 2 → Nat) a + S1x384.size a ≤ S1x4608.size a)
    (inb4 : ∀ a, (![hh, 0, 0] : Fin 3 → Nat) a + S1x256x256.size a ≤ S12x256x256.size a)
    (hQ : ∀ (n : Fin 256) (j : Fin 4608),
      (∑ k : Fin 768, xb (ix2 n k) * x1 (ix2 k j)) * x2 (ix2 (0 : Fin 1) j) + x3 (ix2 (0 : Fin 1) j) = Q n j)
    (hB : ∀ (h : Fin 12) (n k : Fin 256), x4 (ix3 h n k) = Bias h n k) (n d : Fin 256) :
    headOut xb (View.ld x1 (Rect.unit ![0, o] S768x384.size inb1)) (View.ld x2 (Rect.unit ![0, o] S1x384.size inb2))
        (View.ld x3 (Rect.unit ![0, o] S1x384.size inb3)) (View.ld x4 (Rect.unit ![hh, 0, 0] S1x256x256.size inb4)) (ix2 n d)
      = AttnSpec.hsw (AttnSpec.att Q Bias h n d) := by
  subst ho hhh
  unfold headOut
  refine headOf_spec Q Bias h _ _ (fun n j => ?_) (fun n k => ?_) n d
  · rw [pay6_apply, ← hQ n (hc h j)]
    have e1 : ∀ k : Fin 768, View.ld x1 (Rect.unit ![0, 384 * h.val] S768x384.size inb1) (ix2 k j) = x1 (ix2 k (hc h j)) := fun k =>
      congrArg x1 (funext fun a => Fin.ext (by
        match a with
        | ⟨0, _⟩ => show 0 + 1 * k.val = k.val; omega
        | ⟨1, _⟩ => show 384 * h.val + 1 * j.val = 384 * h.val + j.val; omega))
    have e2 : View.ld x2 (Rect.unit ![0, 384 * h.val] S1x384.size inb2) (ix2 (0 : Fin 1) j) = x2 (ix2 (0 : Fin 1) (hc h j)) :=
      congrArg x2 (funext fun a => Fin.ext (by
        match a with
        | ⟨0, _⟩ => show 0 + 1 * 0 = 0; rfl
        | ⟨1, _⟩ => show 384 * h.val + 1 * j.val = 384 * h.val + j.val; omega))
    have e3 : View.ld x3 (Rect.unit ![0, 384 * h.val] S1x384.size inb3) (ix2 (0 : Fin 1) j) = x3 (ix2 (0 : Fin 1) (hc h j)) :=
      congrArg x3 (funext fun a => Fin.ext (by
        match a with
        | ⟨0, _⟩ => show 0 + 1 * 0 = 0; rfl
        | ⟨1, _⟩ => show 384 * h.val + 1 * j.val = 384 * h.val + j.val; omega))
    rw [e2, e3]
    exact congrArg (fun z => z * x2 (ix2 (0 : Fin 1) (hc h j)) + x3 (ix2 (0 : Fin 1) (hc h j)))
      (Finset.sum_congr rfl fun k _ => congrArg (fun z => xb (ix2 n k) * z) (e1 k))
  · refine Eq.trans ?_ (hB h n k)
    exact congrArg x4 (funext fun a => Fin.ext (by
      match a with
      | ⟨0, _⟩ => show h.val + 1 * 0 = h.val; omega
      | ⟨1, _⟩ => show 0 + 1 * n.val = n.val; omega
      | ⟨2, _⟩ => show 0 + 1 * k.val = k.val; omega))

/-- A payload stored at column offset `o' = 256 h` that is head `h`'s activated attention output agrees with the predicted
    scratch contents on its rectangle. -/
theorem piece_agrees (Q : Fin 256 → Fin 4608 → EReal) (Bias : Fin 12 → Fin 256 → Fin 256 → EReal) (h : Fin 12)
    (o' : Nat) (ho' : o' = 256 * h.val)
    (inb : ∀ a, (![0, o'] : Fin 2 → Nat) a + S256x256.size a ≤ S256x3072.size a)
    (w : (Rect.unit (s := S256x3072) ![0, o'] S256x256.size inb).shape.Idx → EReal)
    (hw : ∀ n d : Fin 256, w (ix2 n d) = AttnSpec.hsw (AttnSpec.att Q Bias h n d))
    (x : (Rect.unit (s := S256x3072) ![0, o'] S256x256.size inb).shape.Idx) :
    w x = scratchSpec Q Bias ((Rect.unit (s := S256x3072) ![0, o'] S256x256.size inb).emb x) := by
  subst ho'
  obtain ⟨n, d, rfl⟩ : ∃ (n d : Fin 256), x = ix2 n d := ⟨x 0, x 1, eq_ix2 x⟩
  rw [hw]
  unfold scratchSpec AttnSpec.act
  have hn : (⟨((Rect.unit (s := S256x3072) ![0, 256 * h.val] S256x256.size inb).emb (ix2 n d) 0).val, ((Rect.unit (s := S256x3072) ![0, 256 * h.val] S256x256.size inb).emb (ix2 n d) 0).isLt⟩ : Fin 256) = n :=
    Fin.ext (by show 0 + 1 * n.val = n.val; omega)
  have hj1 : AttnSpec.hcol (⟨((Rect.unit (s := S256x3072) ![0, 256 * h.val] S256x256.size inb).emb (ix2 n d) 1).val, ((Rect.unit (s := S256x3072) ![0, 256 * h.val] S256x256.size inb).emb (ix2 n d) 1).isLt⟩ : Fin 3072) = h :=
    Fin.ext (by show (256 * h.val + 1 * d.val) / 256 = h.val; have := d.isLt; omega)
  have hj2 : AttnSpec.dcol (⟨((Rect.unit (s := S256x3072) ![0, 256 * h.val] S256x256.size inb).emb (ix2 n d) 1).val, ((Rect.unit (s := S256x3072) ![0, 256 * h.val] S256x256.size inb).emb (ix2 n d) 1).isLt⟩ : Fin 3072) = d :=
    Fin.ext (by show (256 * h.val + 1 * d.val) % 256 = d.val; have := d.isLt; omega)
  rw [hn, hj1, hj2]

end Cert.KernelIdeal.KV

end
-- ==== Proof.KBody.lean ====
/-
  What the kernel's body leaves in the output block at one grid point, read at an entry on the extended reals: with the
  point's input block `X` and the staged arrays (transposed weights, folded normalisation rows, gathered bias), entry
  `(0, n, c)` of the block is the specification's `outK n c`. The body's one output store holds the projection of the
  scratch buffer, and the scratch buffer, written by twelve column-block stores, is one function of its index.
-/
import proofs.«110599_j46901042872659_2_alg».proof.Proof.Gen.KernelIdeal.Frame
import proofs.«110599_j46901042872659_2_alg».proof.Proof.KScratch

set_option maxRecDepth 65536

noncomputable section

open scoped BigOperators

namespace Cert.KernelIdeal.KV

open Cert.KernelIdeal Cert.KernelIdeal.Gen Idealize.ShloMosaic Idealize.ShloMosaic.ValueIdx Idealize.ShloMosaic.TcCoe Idealize.ShloMosaic.Tactic

theorem zero3 : (![0, 0, 0] : Fin 3 → Nat) = fun _ => 0 := funext fun a => by fin_cases a <;> rfl
theorem zero2 : (![0, 0] : Fin 2 → Nat) = fun _ => 0 := funext fun a => by fin_cases a <;> rfl

/-- The output block the body leaves, at an entry. -/
theorem body_spec (c : Dev nD) (i : grid0.Coords) (arg1 : Memref sig .tc .vmem S1x256x768 .f32) (harg1 : arg1.IsWhole) (arg2 : Memref sig .tc .vmem S768x4608 .bf16) (harg2 : arg2.IsWhole) (arg3 : Memref sig .tc .vmem S1x4608 .f32) (harg3 : arg3.IsWhole) (arg4 : Memref sig .tc .vmem S1x4608 .f32) (harg4 : arg4.IsWhole) (arg5 : Memref sig .tc .vmem S12x256x256 .f32) (harg5 : arg5.IsWhole) (arg6 : Memref sig .tc .vmem S3072x768 .bf16) (harg6 : arg6.IsWhole) (arg7 : Memref sig .tc .vmem S1x768 .f32) (harg7 : arg7.IsWhole) (arg8 : Memref sig .tc .vmem S1x768 .f32) (harg8 : arg8.IsWhole) (arg9 : Memref sig .tc .vmem S1x256x768 .f32) (harg9 : arg9.IsWhole) (arg10 : Memref sig .tc .vmem S256x3072 .bf16) (harg10 : arg10.IsWhole)
    (x0 : Vec Ideal S1x256x768 .f32) (x1 : Vec Ideal S768x4608 .bf16) (x2 x3 : Vec Ideal S1x4608 .f32) (x4 : Vec Ideal S12x256x256 .f32)
    (x5 : Vec Ideal S3072x768 .bf16) (x6 x7 : Vec Ideal S1x768 .f32)
    (X : Fin 256 → Fin 768 → EReal) (W1 : Fin 4608 → Fin 768 → EReal) (G1 B1 M1 V1 : Fin 4608 → EReal)
    (Bias : Fin 12 → Fin 256 → Fin 256 → EReal) (W2 : Fin 768 → Fin 3072 → EReal) (G2 B2 M2 V2 : Fin 768 → EReal)
    (hx0 : ∀ (n : Fin 256) (k : Fin 768), x0 (ix3 (0 : Fin 1) n k) = X n k)
    (hx1 : ∀ (k : Fin 768) (j : Fin 4608), x1 (ix2 k j) = W1 j k)
    (hx2 : ∀ j : Fin 4608, x2 (ix2 (0 : Fin 1) j) = AttnSpec.scale (G1 j) (V1 j))
    (hx3 : ∀ j : Fin 4608, x3 (ix2 (0 : Fin 1) j) = B1 j - M1 j * AttnSpec.scale (G1 j) (V1 j))
    (hx4 : ∀ (h : Fin 12) (n k : Fin 256), x4 (ix3 h n k) = Bias h n k)
    (hx5 : ∀ (j : Fin 3072) (ch : Fin 768), x5 (ix2 j ch) = W2 ch j)
    (hx6 : ∀ ch : Fin 768, x6 (ix2 (0 : Fin 1) ch) = AttnSpec.scale (G2 ch) (V2 ch))
    (hx7 : ∀ ch : Fin 768, x7 (ix2 (0 : Fin 1) ch) = B2 ch - M2 ch * AttnSpec.scale (G2 ch) (V2 ch))
    (n : Fin 256) (ch : Fin 768) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix3 (0 : Fin 1) n ch)
      = AttnSpec.outK X W1 G1 B1 M1 V1 Bias W2 G2 B2 M2 V2 n ch := by
  -- the kernel's normalised projection, from the staged arrays
  let Q : Fin 256 → Fin 4608 → EReal := AttnSpec.qkvK X W1 G1 B1 M1 V1
  have hQ : ∀ (n : Fin 256) (j : Fin 4608),
      (∑ k : Fin 768, k0_pay2 (F := Ideal) x0 (ix2 n k) * x1 (ix2 k j)) * x2 (ix2 (0 : Fin 1) j) + x3 (ix2 (0 : Fin 1) j) = Q n j := fun n j => by
    show _ = AttnSpec.bnK (∑ k : Fin 768, X n k * W1 j k) (M1 j) (AttnSpec.scale (G1 j) (V1 j)) (B1 j)
    unfold AttnSpec.bnK
    rw [hx2, hx3]
    exact congrArg (fun z => z * AttnSpec.scale (G1 j) (V1 j) + (B1 j - M1 j * AttnSpec.scale (G1 j) (V1 j)))
      (Finset.sum_congr rfl fun k _ => by rw [pay2_apply, hx0, hx1])
  unfold out0_A_8
  rw [View.read_writes_junk_eq_canon]
  unfold kernelRun0_A
  dsimp only
  sl_unfold_words
  refine (congrFun (View.canon_unit_zero (S := S1x256x768) zero3 _ _) _).trans ?_
  simp only [View.readAt_eq_ld, harg1.read_unread, harg2.read_unread, harg3.read_unread, harg4.read_unread, harg5.read_unread,
    harg6.read_unread, harg7.read_unread, harg8.read_unread]
  simp only [View.ld_unit_zero (S := S1x256x768) zero3, View.ld_unit_zero (S := S3072x768) zero2, View.ld_unit_zero (S := S1x768) zero2]
  refine (payOut_apply _ _ _ _ n ch).trans ?_
  unfold AttnSpec.outK AttnSpec.bnK
  rw [hx6, hx7]
  refine congrArg (fun z => z * AttnSpec.scale (G2 ch) (V2 ch) + (B2 ch - M2 ch * AttnSpec.scale (G2 ch) (V2 ch))) ?_
  unfold AttnSpec.proj
  refine Finset.sum_congr rfl fun j _ => ?_
  rw [hx5]
  refine congrArg (fun z => z * W2 ch j) ?_
  -- the scratch buffer read back whole: one function of its index
  rw [View.readCov_eq_canon']
  refine (View.canon_apply_of_pieces (scratchSpec Q Bias) _ ?_ _ ?_).trans ?_
  · repeat' (first | exact fun _ h => absurd h List.not_mem_nil | refine List.forall_mem_cons.2 ⟨?_, ?_⟩)
    · intro x
      exact piece_agrees Q Bias (11 : Fin 12) 2816 (by decide) inb_S256x3072_S256x256_0_2816 _ (fun n d =>
        piece_spec Q Bias (11 : Fin 12) 4224 (by decide) 11 (by decide) _ x1 x2 x3 x4 _ _ _ _ hQ hx4 n d) x
    · intro x
      exact piece_agrees Q Bias (10 : Fin 12) 2560 (by decide) inb_S256x3072_S256x256_0_2560 _ (fun n d =>
        piece_spec Q Bias (10 : Fin 12) 3840 (by decide) 10 (by decide) _ x1 x2 x3 x4 _ _ _ _ hQ hx4 n d) x
    · intro x
      exact piece_agrees Q Bias (9 : Fin 12) 2304 (by decide) inb_S256x3072_S256x256_0_2304 _ (fun n d =>
        piece_spec Q Bias (9 : Fin 12) 3456 (by decide) 9 (by decide) _ x1 x2 x3 x4 _ _ _ _ hQ hx4 n d) x
    · intro x
      exact piece_agrees Q Bias (8 : Fin 12) 2048 (by decide) inb_S256x3072_S256x256_0_2048 _ (fun n d =>
        piece_spec Q Bias (8 : Fin 12) 3072 (by decide) 8 (by decide) _ x1 x2 x3 x4 _ _ _ _ hQ hx4 n d) x
    · intro x
      exact piece_agrees Q Bias (7 : Fin 12) 1792 (by decide) inb_S256x3072_S256x256_0_1792 _ (fun n d =>
        piece_spec Q Bias (7 : Fin 12) 2688 (by decide) 7 (by decide) _ x1 x2 x3 x4 _ _ _ _ hQ hx4 n d) x
    · intro x
      exact piece_agrees Q Bias (6 : Fin 12) 1536 (by decide) inb_S256x3072_S256x256_0_1536 _ (fun n d =>
        piece_spec Q Bias (6 : Fin 12) 2304 (by decide) 6 (by decide) _ x1 x2 x3 x4 _ _ _ _ hQ hx4 n d) x
    · intro x
      exact piece_agrees Q Bias (5 : Fin 12) 1280 (by decide) inb_S256x3072_S256x256_0_1280 _ (fun n d =>
        piece_spec Q Bias (5 : Fin 12) 1920 (by decide) 5 (by decide) _ x1 x2 x3 x4 _ _ _ _ hQ hx4 n d) x
    · intro x
      exact piece_agrees Q Bias (4 : Fin 12) 1024 (by decide) inb_S256x3072_S256x256_0_1024 _ (fun n d =>
        piece_spec Q Bias (4 : Fin 12) 1536 (by decide) 4 (by decide) _ x1 x2 x3 x4 _ _ _ _ hQ hx4 n d) x
    · intro x
      exact piece_agrees Q Bias (3 : Fin 12) 768 (by decide) inb_S256x3072_S256x256_0_768 _ (fun n d =>
        piece_spec Q Bias (3 : Fin 12) 1152 (by decide) 3 (by decide) _ x1 x2 x3 x4 _ _ _ _ hQ hx4 n d) x
    · intro x
      exact piece_agrees Q Bias (2 : Fin 12) 512 (by decide) inb_S256x3072_S256x256_0_512 _ (fun n d =>
        piece_spec Q Bias (2 : Fin 12) 768 (by decide) 2 (by decide) _ x1 x2 x3 x4 _ _ _ _ hQ hx4 n d) x
    · intro x
      exact piece_agrees Q Bias (1 : Fin 12) 256 (by decide) inb_S256x3072_S256x256_0_256 _ (fun n d =>
        piece_spec Q Bias (1 : Fin 12) 384 (by decide) 1 (by decide) _ x1 x2 x3 x4 _ _ _ _ hQ hx4 n d) x
    · intro x
      exact piece_agrees Q Bias (0 : Fin 12) 0 (by decide) inb_S256x3072_S256x256_0_0 _ (fun n d =>
        piece_spec Q Bias (0 : Fin 12) 0 (by decide) 0 (by decide) _ x1 x2 x3 x4 _ _ _ _ hQ hx4 n d) x
  · exact View.cover_of_tiledL (s := S256x3072) _ S256x256.size (by sl_kernel_rfl) _
  · exact congrArg₂ (AttnSpec.act Q Bias) (Fin.ext (by show 0 + 1 * n.val = n.val; omega)) (Fin.ext (by show 0 + 1 * j.val = j.val; omega))

end Cert.KernelIdeal.KV

end
-- ==== Proof.KBlocks.lean ====
/-
  The kernel's windows read as arrays. The kernel is one grid of 64 points; at point t the input window 0 holds block
  (t, 0, 0) of the [64, 256, 768] argument, every other input window holds its whole array (its index map is constantly
  zero and its block is the array's shape), and the output window 8 writes block (t, 0, 0) of the [64, 256, 768] result.
  A block's coordinate on an axis is ALWAYS (block index) × (block size) + 1 × (the coordinate inside the block).

  (A) Block reads: each input window's block at point t, element by element, as the array the region finds.
  (B) From blocks to the array: if what every point t leaves in the output's staging buffer is, element (0, n, ch),
      the value G (t, n, ch) of one function G on the whole result's index set, then the result array ends holding G:
      the 64 blocks are disjoint slabs of the first axis and together cover it (batch b is covered by point t = b).
-/
import proofs.«110599_j46901042872659_2_alg».proof.Proof.Gen.KernelIdeal.Value
import Idealize.ShloMosaic.Lib.Pipeline.Value
import Idealize.ShloMosaic.Lib.ValueIdx

set_option maxRecDepth 16384

noncomputable section

namespace Cert.KernelIdeal.KV

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ)

/-! ## The printed index maps, decided once over the grid -/

/-- At grid point t the input window 0 and the output window 8 sit at block (t, 0, 0); the seven whole-array windows
    sit at block (0, …, 0). Decided over the 64 points. -/
theorem idx_facts : ∀ t : Fin cfg0.N,
    (win0_0.index t (0 : Fin 3) = t.val ∧ win0_0.index t (1 : Fin 3) = 0 ∧ win0_0.index t (2 : Fin 3) = 0)
    ∧ (win0_8.index t (0 : Fin 3) = t.val ∧ win0_8.index t (1 : Fin 3) = 0 ∧ win0_8.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## (A) Block reads -/

/-- Window 0's block at point t is batch t of the argument: element (0, n, k) of the block is element (t, n, k). -/
theorem iblk0_apply (c : Dev nD) (t : Fin cfg0.N) (b : Fin 64) (hb : b.val = t.val) (n : Fin 256) (k : Fin 768) :
    (iblk m c 0 t : Vec F S1x256x768 .f32) (ix3 (0 : Fin 1) n k)
      = (V m c main_arg0 : S64x256x768.Idx → Elt F .f32) (ix3 b n k) := by
  obtain ⟨⟨e0, e1, e2⟩, -⟩ := idx_facts t
  show V m c main_arg0 (((cfg0.win 0).blk t).view.emb (ix3 (0 : Fin 1) n k)) = V m c main_arg0 (ix3 b n k)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 256 + 1 * n.val = n.val; omega
  | ⟨2, _⟩ => show win0_0.index t (2 : Fin 3) * 768 + 1 * k.val = k.val; omega

/-- Window 1's block at every point is the whole [768, 4608] array. -/
theorem iblk1_eq (c : Dev nD) (t : Fin cfg0.N) :
    (iblk m c 1 t : Vec F S768x4608 .bf16) = (V m c main_v1 : S768x4608.Idx → Elt F .bf16) := by
  obtain ⟨-, -, ⟨e0, e1⟩, -⟩ := idx_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 768 + 1 * (y 0).val = (y 0).val; omega
  | ⟨1, _⟩ => show win0_1.index t (1 : Fin 2) * 4608 + 1 * (y 1).val = (y 1).val; omega

/-- Window 2's block at every point is the whole [1, 4608] array. -/
theorem iblk2_eq (c : Dev nD) (t : Fin cfg0.N) :
    (iblk m c 2 t : Vec F S1x4608 .f32) = (V m c main_v8 : S1x4608.Idx → Elt F .f32) := by
  obtain ⟨-, -, -, ⟨e0, e1⟩, -⟩ := idx_facts t
  funext y
  show V m c main_v8 (((cfg0.win 2).blk t).view.emb y) = V m c main_v8 y
  refine congrArg (V m c main_v8) (funext fun a => Fin.ext ?_)
  match a with
  | ⟨0, _⟩ => show win0_2.index t (0 : Fin 2) * 1 + 1 * (y 0).val = (y 0).val; omega
  | ⟨1, _⟩ => show win0_2.index t (1 : Fin 2) * 4608 + 1 * (y 1).val = (y 1).val; omega

/-- Window 3's block at every point is the whole [1, 4608] array. -/
theorem iblk3_eq (c : Dev nD) (t : Fin cfg0.N) :
    (iblk m c 3 t : Vec F S1x4608 .f32) = (V m c main_v9 : S1x4608.Idx → Elt F .f32) := by
  obtain ⟨-, -, -, -, ⟨e0, e1⟩, -⟩ := idx_facts t
  funext y
  show V m c main_v9 (((cfg0.win 3).blk t).view.emb y) = V m c main_v9 y
  refine congrArg (V m c main_v9) (funext fun a => Fin.ext ?_)
  match a with
  | ⟨0, _⟩ => show win0_3.index t (0 : Fin 2) * 1 + 1 * (y 0).val = (y 0).val; omega
  | ⟨1, _⟩ => show win0_3.index t (1 : Fin 2) * 4608 + 1 * (y 1).val = (y 1).val; omega

/-- Window 4's block at every point is the whole [12, 256, 256] array. -/
theorem iblk4_eq (c : Dev nD) (t : Fin cfg0.N) :
    (iblk m c 4 t : Vec F S12x256x256 .f32) = (V m c main_v26 : S12x256x256.Idx → Elt F .f32) := by
  obtain ⟨-, -, -, -, -, ⟨e0, e1, e2⟩, -⟩ := idx_facts t
  funext y
  show V m c main_v26 (((cfg0.win 4).blk t).view.emb y) = V m c main_v26 y
  refine congrArg (V m c main_v26) (funext fun a => Fin.ext ?_)
  match a with
  | ⟨0, _⟩ => show win0_4.index t (0 : Fin 3) * 12 + 1 * (y 0).val = (y 0).val; omega
  | ⟨1, _⟩ => show win0_4.index t (1 : Fin 3) * 256 + 1 * (y 1).val = (y 1).val; omega
  | ⟨2, _⟩ => show win0_4.index t (2 : Fin 3) * 256 + 1 * (y 2).val = (y 2).val; omega

/-- Window 5's block at every point is the whole [3072, 768] array. -/
theorem iblk5_eq (c : Dev nD) (t : Fin cfg0.N) :
    (iblk m c 5 t : Vec F S3072x768 .bf16) = (V m c main_v11 : S3072x768.Idx → Elt F .bf16) := by
  obtain ⟨-, -, -, -, -, -, ⟨e0, e1⟩, -⟩ := idx_facts t
  funext y
  show V m c main_v11 (((cfg0.win 5).blk t).view.emb y) = V m c main_v11 y
  refine congrArg (V m c main_v11) (funext fun a => Fin.ext ?_)
  match a with
  | ⟨0, _⟩ => show win0_5.index t (0 : Fin 2) * 3072 + 1 * (y 0).val = (y 0).val; omega
  | ⟨1, _⟩ => show win0_5.index t (1 : Fin 2) * 768 + 1 * (y 1).val = (y 1).val; omega

/-- Window 6's block at every point is the whole [1, 768] array. -/
theorem iblk6_eq (c : Dev nD) (t : Fin cfg0.N) :
    (iblk m c 6 t : Vec F S1x768 .f32) = (V m c main_v18 : S1x768.Idx → Elt F .f32) := by
  obtain ⟨-, -, -, -, -, -, -, ⟨e0, e1⟩, -⟩ := idx_facts t
  funext y
  show V m c main_v18 (((cfg0.win 6).blk t).view.emb y) = V m c main_v18 y
  refine congrArg (V m c main_v18) (funext fun a => Fin.ext ?_)
  match a with
  | ⟨0, _⟩ => show win0_6.index t (0 : Fin 2) * 1 + 1 * (y 0).val = (y 0).val; omega
  | ⟨1, _⟩ => show win0_6.index t (1 : Fin 2) * 768 + 1 * (y 1).val = (y 1).val; omega

/-- Window 7's block at every point is the whole [1, 768] array. -/
theorem iblk7_eq (c : Dev nD) (t : Fin cfg0.N) :
    (iblk m c 7 t : Vec F S1x768 .f32) = (V m c main_v19 : S1x768.Idx → Elt F .f32) := by
  obtain ⟨-, -, -, -, -, -, -, -, ⟨e0, e1⟩⟩ := idx_facts t
  funext y
  show V m c main_v19 (((cfg0.win 7).blk t).view.emb y) = V m c main_v19 y
  refine congrArg (V m c main_v19) (funext fun a => Fin.ext ?_)
  match a with
  | ⟨0, _⟩ => show win0_7.index t (0 : Fin 2) * 1 + 1 * (y 0).val = (y 0).val; omega
  | ⟨1, _⟩ => show win0_7.index t (1 : Fin 2) * 768 + 1 * (y 1).val = (y 1).val; omega

/-! ## (B) From blocks to the array -/

/-- WHAT POINT t WRITES BACK is block t of G, when the staging buffer after point t holds G's batch t: element
    (0, n, ch) of the block is element (t, n, ch) of the array. -/
theorem flushed8_eq (c : Dev nD) (G : S64x256x768.Idx → Elt F .f32)
    (hG : ∀ (t : Fin cfg0.N) (b : Fin 64), b.val = t.val → ∀ (n : Fin 256) (ch : Fin 768),
      (outsAt0 m c t : Vec F S1x256x768 .f32) (ix3 (0 : Fin 1) n ch) = G (ix3 b n ch))
    (t : Fin cfg0.N) :
    (dats m 0 c).flushed 8 t = ((cfg0.win 8).blk t).view.read (Elt F) G := by
  rw [Value.flushed8]
  obtain ⟨-, ⟨e0, e1, e2⟩, -⟩ := idx_facts t
  have hN : grid0.N = 64 := N_0
  have ht : t.val < grid0.N := t.isLt
  refine funext fun (j : S1x256x768.Idx) => ?_
  show (outsAt0 m c t : Vec F S1x256x768 .f32) j = G (((cfg0.win 8).blk t).view.emb j)
  have h0 : (j 0).val < 1 := (j 0).isLt
  have hj : j = ix3 (0 : Fin 1) (j 1) (j 2) := by
    funext a
    match a with
    | ⟨0, _⟩ => exact Fin.ext (by show (j 0).val = 0; omega)
    | ⟨1, _⟩ => rfl
    | ⟨2, _⟩ => rfl
  refine (congrArg (outsAt0 m c t : Vec F S1x256x768 .f32) hj).trans ?_
  refine (hG t ⟨t.val, by omega⟩ rfl (j 1) (j 2)).trans ?_
  refine congrArg G (funext fun a => Fin.ext ?_)
  match a with
  | ⟨0, _⟩ => show t.val = win0_8.index t (0 : Fin 3) * 1 + 1 * (j 0).val; omega
  | ⟨1, _⟩ => show (j 1).val = win0_8.index t (1 : Fin 3) * 256 + 1 * (j 1).val; omega
  | ⟨2, _⟩ => show (j 2).val = win0_8.index t (2 : Fin 3) * 768 + 1 * (j 2).val; omega

/-- An index of the result array is in point t's block iff each coordinate is in the block's range on its axis. -/
theorem mem_blk8 (t : Fin cfg0.N) (i : S64x256x768.Idx) :
    i ∈ ((cfg0.win 8).blk t).view.set ↔ ∀ a : Fin 3, win0_8.index t a * S1x256x768.size a ≤ (i a).val ∧ (i a).val < win0_8.index t a * S1x256x768.size a + S1x256x768.size a := by
  show i ∈ ((View.whole main_v27).slice (win0_8.rect t)).set ↔ _
  rw [View.set_slice_whole, Rect.mem_set_unit]
  exact Iff.rfl

/-- THE BLOCKS COVER THE ARRAY: index (b, n, ch) is in the block of point t = b, which writes back. -/
theorem cover8 (i : S64x256x768.Idx) :
    ∃ t : Fin cfg0.N, (cfg0.win 8).flush t = true ∧ i ∈ ((cfg0.win 8).blk t).view.set := by
  have hN : grid0.N = 64 := N_0
  have hi0 : (i 0).val < 64 := (i 0).isLt
  have hi1 : (i 1).val < 256 := (i 1).isLt
  have hi2 : (i 2).val < 768 := (i 2).isLt
  obtain ⟨t, ht⟩ : ∃ t : Fin cfg0.N, t.val = (i 0).val := ⟨⟨(i 0).val, by show (i 0).val < grid0.N; omega⟩, rfl⟩
  obtain ⟨-, ⟨e0, e1, e2⟩, -⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 768 ≤ (i 2).val ∧ (i 2).val < win0_8.index t (2 : Fin 3) * 768 + 768; omega

/-- THE RESULT ARRAY after the run holds G: every point writes its block of G, and the blocks cover the array. -/
theorem final8 (c : Dev nD) (G : S64x256x768.Idx → Elt F .f32)
    (hG : ∀ (t : Fin cfg0.N) (b : Fin 64), b.val = t.val → ∀ (n : Fin 256) (ch : Fin 768),
      (outsAt0 m c t : Vec F S1x256x768 .f32) (ix3 (0 : Fin 1) n ch) = G (ix3 b n ch)) :
    (dats m 0 c).arrAt 8 cfg0.N = G :=
  (dats m 0 c).arrAt_eq_of_cover 8 G (fun t _ => flushed8_eq m c G hG t) cover8

end Cert.KernelIdeal.KV

end
-- ==== Proof.KHost.lean ====
/-
  The arrays the kernel's region is launched on, as the host operations before it compute them from the arguments,
  each read at an entry on the extended reals: the transposed weights (`w1T (k, j) = qkv_w (j, k)`,
  `w2T (j, c) = proj_w (c, j)`), the folded normalisation rows (`scale = γ · rsqrt (var + ε)`,
  `shift = β − μ · scale`, as single rows) and the gathered relative-position bias.
-/
import proofs.«110599_j46901042872659_2_alg».proof.Proof.Gen.KernelIdeal.Frame.Runs
import proofs.«110599_j46901042872659_2_alg».proof.Proof.Spec
import proofs.«110599_j46901042872659_2_alg».proof.Proof.LibRowBias
import Idealize.ShloMosaic.Lib.StableHlo.Run
import Idealize.ShloMosaic.Lib.ValueIdx
import Idealize.ShloMosaic.Lib.Pipeline.Value

noncomputable section

namespace Cert.KernelIdeal.KV

open Cert.KernelIdeal Cert.KernelIdeal.Gen Idealize.ShloMosaic Idealize.ShloMosaic.ValueIdx Idealize.ShloMosaic.TcCoe Idealize.SL.Sem
open Idealize.ShloMosaic.StableHlo

/-- The gathered bias `attn_biases[:, bias_idxs]` (negative indices wrapped by 256 first), as the host computes it. -/
def biasOf {F : FTy → Type} [FloatOps F] (x6 : FVec F S12x256 .f32) (x12 : IVec S256x256 32) : FVec F S12x256x256 .f32 :=
  Host.gather gather_S12x256_S256x256x1_S12x256x256_0_1_n_n_1_2_121 x6
    (broadcastInDim S256x256x1 ![0, 1] bcast_S256x256_S256x256x1_0_1
      (select (cmpi .slt x12 (broadcastInDim S256x256 ![] bcast_S_S256x256 (constantI S_ 32 0#32)))
        (addi x12 (broadcastInDim S256x256 ![] bcast_S_S256x256 (constantI S_ 32 256#32))) x12))

/-! ## The operations' terms read at an entry, over variables of the literal vector types -/

/-- A transposed, narrowed matrix at entry `(k, j)` is the matrix at `(j, k)`. -/
theorem transposeW1_apply (w : FVec Ideal S4608x768 .f32) (k : Fin 768) (j : Fin 4608) :
    truncf .bf16 (transpose S768x4608 [1, 0] w transposes_S4608x768_S768x4608_1_0) bitsLt_bf16_f32 (ix2 k j) = w (ix2 j k) :=
  transpose_apply [1, 0] w transposes_S4608x768_S768x4608_1_0 (ix2 k j) (ix2 j k) (fun b => match b with
    | ⟨0, _⟩ => rfl
    | ⟨1, _⟩ => rfl)

theorem transposeW2_apply (w : FVec Ideal S768x3072 .f32) (j : Fin 3072) (ch : Fin 768) :
    truncf .bf16 (transpose S3072x768 [1, 0] w transposes_S768x3072_S3072x768_1_0) bitsLt_bf16_f32 (ix2 j ch) = w (ix2 ch j) :=
  transpose_apply [1, 0] w transposes_S768x3072_S3072x768_1_0 (ix2 j ch) (ix2 ch j) (fun b => match b with
    | ⟨0, _⟩ => rfl
    | ⟨1, _⟩ => rfl)

theorem eps4608 (j : Fin 4608) :
    broadcastInDim S4608 ![] bcast_S_S4608 (constant (F := Ideal) S_ .f32 0x3727C5AC#32) (ix1 j) = AttnSpec.eps :=
  broadcastInDim_apply _ bcast_S_S4608 _ (ix1 j) ix0 (fun a => a.elim0)

theorem eps768 (j : Fin 768) :
    broadcastInDim S768 ![] bcast_S_S768 (constant (F := Ideal) S_ .f32 0x3727C5AC#32) (ix1 j) = AttnSpec.eps :=
  broadcastInDim_apply _ bcast_S_S768 _ (ix1 j) ix0 (fun a => a.elim0)

/-- The scale `γ · rsqrt (var + ε)` as a single row, at lane `j`. -/
theorem scaleRow4608_apply (g v : FVec Ideal S4608 .f32) (j : Fin 4608) :
    shapeCast S1x4608 (mulf g (Host.rsqrt (addf v
        (broadcastInDim S4608 ![] bcast_S_S4608 (constant (F := Ideal) S_ .f32 0x3727C5AC#32))))) shapeCasts_S4608_S1x4608 (ix2 (0 : Fin 1) j)
      = AttnSpec.scale (g (ix1 j)) (v (ix1 j)) := by
  refine (Cert.RowBias.castRow_apply _ shapeCasts_S4608_S1x4608 j).trans ?_
  show g (ix1 j) * Ideal.rsqrt (v (ix1 j)
      + broadcastInDim S4608 ![] bcast_S_S4608 (constant (F := Ideal) S_ .f32 0x3727C5AC#32) (ix1 j)) = _
  rw [eps4608]; rfl

/-- The shift `β − μ · scale` as a single row, at lane `j`. -/
theorem shiftRow4608_apply (g be mu v : FVec Ideal S4608 .f32) (j : Fin 4608) :
    shapeCast S1x4608 (subf be (mulf mu (mulf g (Host.rsqrt (addf v
        (broadcastInDim S4608 ![] bcast_S_S4608 (constant (F := Ideal) S_ .f32 0x3727C5AC#32))))))) shapeCasts_S4608_S1x4608 (ix2 (0 : Fin 1) j)
      = be (ix1 j) - mu (ix1 j) * AttnSpec.scale (g (ix1 j)) (v (ix1 j)) := by
  refine (Cert.RowBias.castRow_apply _ shapeCasts_S4608_S1x4608 j).trans ?_
  show be (ix1 j) - mu (ix1 j) * (g (ix1 j) * Ideal.rsqrt (v (ix1 j)
      + broadcastInDim S4608 ![] bcast_S_S4608 (constant (F := Ideal) S_ .f32 0x3727C5AC#32) (ix1 j))) = _
  rw [eps4608]; rfl

theorem scaleRow768_apply (g v : FVec Ideal S768 .f32) (j : Fin 768) :
    shapeCast S1x768 (mulf g (Host.rsqrt (addf v
        (broadcastInDim S768 ![] bcast_S_S768 (constant (F := Ideal) S_ .f32 0x3727C5AC#32))))) shapeCasts_S768_S1x768 (ix2 (0 : Fin 1) j)
      = AttnSpec.scale (g (ix1 j)) (v (ix1 j)) := by
  refine (Cert.RowBias.castRow_apply _ shapeCasts_S768_S1x768 j).trans ?_
  show g (ix1 j) * Ideal.rsqrt (v (ix1 j)
      + broadcastInDim S768 ![] bcast_S_S768 (constant (F := Ideal) S_ .f32 0x3727C5AC#32) (ix1 j)) = _
  rw [eps768]; rfl

theorem shiftRow768_apply (g be mu v : FVec Ideal S768 .f32) (j : Fin 768) :
    shapeCast S1x768 (subf be (mulf mu (mulf g (Host.rsqrt (addf v
        (broadcastInDim S768 ![] bcast_S_S768 (constant (F := Ideal) S_ .f32 0x3727C5AC#32))))))) shapeCasts_S768_S1x768 (ix2 (0 : Fin 1) j)
      = be (ix1 j) - mu (ix1 j) * AttnSpec.scale (g (ix1 j)) (v (ix1 j)) := by
  refine (Cert.RowBias.castRow_apply _ shapeCasts_S768_S1x768 j).trans ?_
  show be (ix1 j) - mu (ix1 j) * (g (ix1 j) * Ideal.rsqrt (v (ix1 j)
      + broadcastInDim S768 ![] bcast_S_S768 (constant (F := Ideal) S_ .f32 0x3727C5AC#32) (ix1 j))) = _
  rw [eps768]; rfl

/-! ## The launched arrays as the operations' terms of the arguments -/

variable (m : (ℓ : Loc nD τ sig) → Buf (Elt Ideal) ℓ)

/-- The first projection's weights, transposed. -/
theorem V_w1 (c : Dev nD) : @Eq (FVec Ideal S768x4608 .bf16) (V m c main_v1)
    (truncf .bf16 (transpose S768x4608 [1, 0] (m ((c : Thread nD τ).loc main_arg1)) transposes_S4608x768_S768x4608_1_0) bitsLt_bf16_f32) := by
  dsimp only [Gen.V, Gen.hostOps0]; after_results_simp

theorem w1_apply (c : Dev nD) (k : Fin 768) (j : Fin 4608) :
    (V m c main_v1 : S768x4608.Idx → EReal) (ix2 k j) = m ((c : Thread nD τ).loc main_arg1) (ix2 j k) := by
  rw [V_w1]; exact transposeW1_apply _ k j

/-- The second projection's weights, transposed. -/
theorem V_w2 (c : Dev nD) : @Eq (FVec Ideal S3072x768 .bf16) (V m c main_v11)
    (truncf .bf16 (transpose S3072x768 [1, 0] (m ((c : Thread nD τ).loc main_arg7)) transposes_S768x3072_S3072x768_1_0) bitsLt_bf16_f32) := by
  dsimp only [Gen.V, Gen.hostOps0]; after_results_simp

theorem w2_apply (c : Dev nD) (j : Fin 3072) (ch : Fin 768) :
    (V m c main_v11 : S3072x768.Idx → EReal) (ix2 j ch) = m ((c : Thread nD τ).loc main_arg7) (ix2 ch j) := by
  rw [V_w2]; exact transposeW2_apply _ j ch

/-- The first normalisation's scale row and shift row. -/
theorem V_sc1 (c : Dev nD) : @Eq (FVec Ideal S1x4608 .f32) (V m c main_v8)
    (shapeCast S1x4608 (mulf (m ((c : Thread nD τ).loc main_arg2)) (Host.rsqrt (addf (m ((c : Thread nD τ).loc main_arg5))
        (broadcastInDim S4608 ![] bcast_S_S4608 (constant (F := Ideal) S_ .f32 0x3727C5AC#32))))) shapeCasts_S4608_S1x4608) := by
  dsimp only [Gen.V, Gen.hostOps0]; after_results_simp; rfl

theorem V_sh1 (c : Dev nD) : @Eq (FVec Ideal S1x4608 .f32) (V m c main_v9)
    (shapeCast S1x4608 (subf (m ((c : Thread nD τ).loc main_arg3)) (mulf (m ((c : Thread nD τ).loc main_arg4))
        (mulf (m ((c : Thread nD τ).loc main_arg2)) (Host.rsqrt (addf (m ((c : Thread nD τ).loc main_arg5))
          (broadcastInDim S4608 ![] bcast_S_S4608 (constant (F := Ideal) S_ .f32 0x3727C5AC#32))))))) shapeCasts_S4608_S1x4608) := by
  dsimp only [Gen.V, Gen.hostOps0]; after_results_simp; rfl

theorem sc1_apply (c : Dev nD) (j : Fin 4608) :
    (V m c main_v8 : S1x4608.Idx → EReal) (ix2 (0 : Fin 1) j)
      = AttnSpec.scale (m ((c : Thread nD τ).loc main_arg2) (ix1 j)) (m ((c : Thread nD τ).loc main_arg5) (ix1 j)) := by
  rw [V_sc1]; exact scaleRow4608_apply _ _ j

theorem sh1_apply (c : Dev nD) (j : Fin 4608) :
    (V m c main_v9 : S1x4608.Idx → EReal) (ix2 (0 : Fin 1) j)
      = @HSub.hSub EReal EReal EReal instHSub (m ((c : Thread nD τ).loc main_arg3) (ix1 j))
          (@HMul.hMul EReal EReal EReal instHMul (m ((c : Thread nD τ).loc main_arg4) (ix1 j))
            (AttnSpec.scale (m ((c : Thread nD τ).loc main_arg2) (ix1 j)) (m ((c : Thread nD τ).loc main_arg5) (ix1 j)))) := by
  rw [V_sh1]; exact shiftRow4608_apply _ _ _ _ j

/-- The second normalisation's scale row and shift row. -/
theorem V_sc2 (c : Dev nD) : @Eq (FVec Ideal S1x768 .f32) (V m c main_v18)
    (shapeCast S1x768 (mulf (m ((c : Thread nD τ).loc main_arg8)) (Host.rsqrt (addf (m ((c : Thread nD τ).loc main_arg11))
        (broadcastInDim S768 ![] bcast_S_S768 (constant (F := Ideal) S_ .f32 0x3727C5AC#32))))) shapeCasts_S768_S1x768) := by
  dsimp only [Gen.V, Gen.hostOps0]; after_results_simp; rfl

theorem V_sh2 (c : Dev nD) : @Eq (FVec Ideal S1x768 .f32) (V m c main_v19)
    (shapeCast S1x768 (subf (m ((c : Thread nD τ).loc main_arg9)) (mulf (m ((c : Thread nD τ).loc main_arg10))
        (mulf (m ((c : Thread nD τ).loc main_arg8)) (Host.rsqrt (addf (m ((c : Thread nD τ).loc main_arg11))
          (broadcastInDim S768 ![] bcast_S_S768 (constant (F := Ideal) S_ .f32 0x3727C5AC#32))))))) shapeCasts_S768_S1x768) := by
  dsimp only [Gen.V, Gen.hostOps0]; after_results_simp; rfl

theorem sc2_apply (c : Dev nD) (j : Fin 768) :
    (V m c main_v18 : S1x768.Idx → EReal) (ix2 (0 : Fin 1) j)
      = AttnSpec.scale (m ((c : Thread nD τ).loc main_arg8) (ix1 j)) (m ((c : Thread nD τ).loc main_arg11) (ix1 j)) := by
  rw [V_sc2]; exact scaleRow768_apply _ _ j

theorem sh2_apply (c : Dev nD) (j : Fin 768) :
    (V m c main_v19 : S1x768.Idx → EReal) (ix2 (0 : Fin 1) j)
      = @HSub.hSub EReal EReal EReal instHSub (m ((c : Thread nD τ).loc main_arg9) (ix1 j))
          (@HMul.hMul EReal EReal EReal instHMul (m ((c : Thread nD τ).loc main_arg10) (ix1 j))
            (AttnSpec.scale (m ((c : Thread nD τ).loc main_arg8) (ix1 j)) (m ((c : Thread nD τ).loc main_arg11) (ix1 j)))) := by
  rw [V_sh2]; exact shiftRow768_apply _ _ _ _ j

/-- The gathered bias. -/
theorem V_bias (c : Dev nD) : @Eq (FVec Ideal S12x256x256 .f32) (V m c main_v26)
    (biasOf (m ((c : Thread nD τ).loc main_arg6)) (m ((c : Thread nD τ).loc main_arg12))) := by
  dsimp only [Gen.V, Gen.hostOps0]; after_results_simp; rfl

end Cert.KernelIdeal.KV

end
-- ==== Proof.RefSide.lean ====
/-
  The reference program's value, read at an output index, is the specification function `AttnSpec.outR` of the
  argument arrays: the stages of the generated reading are composed layer by layer, each at explicit coordinates.
-/
import proofs.«110599_j46901042872659_2_alg».proof.Proof.Gen.ReferenceIdeal.Read
import proofs.«110599_j46901042872659_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

variable (x0 : (⟨S64x256x768, .f32⟩ : BufTy).Contents (Elt Ideal)) (x1 : (⟨S4608x768, .f32⟩ : BufTy).Contents (Elt Ideal))
  (x2 x3 x4 x5 : (⟨S4608, .f32⟩ : BufTy).Contents (Elt Ideal)) (x6 : (⟨S12x256, .f32⟩ : BufTy).Contents (Elt Ideal))
  (x7 : (⟨S768x3072, .f32⟩ : BufTy).Contents (Elt Ideal)) (x8 x9 x10 x11 : (⟨S768, .f32⟩ : BufTy).Contents (Elt Ideal))
  (x12 : (⟨S256x256, .i32⟩ : BufTy).Contents (Elt Ideal))

/-- The normalised QKV projection of batch element `b`, as the specification spells it. -/
abbrev Qf (b : Fin 64) : Fin 256 → Fin 4608 → EReal :=
  AttnSpec.qkvR (fun n k => x0 (ix3 b n k)) (fun j k => x1 (ix2 j k))
    (fun j => x2 (ix1 j)) (fun j => x3 (ix1 j)) (fun j => x4 (ix1 j)) (fun j => x5 (ix1 j))

/-- The gathered relative-position bias, by coordinates. -/
abbrev Bf : Fin 12 → Fin 256 → Fin 256 → EReal := fun h n k => val_main_v28 (F := Ideal) x6 x12 (ix3 h n k)

/-- The normalised QKV projection: stages 0–13 at batch `b`, token `n`, column `j`. -/
theorem v13_eq (b : Fin 64) (n : Fin 256) (j : Fin 4608) :
    val_main_v13 (F := Ideal) x0 x1 x2 x3 x4 x5 (ix3 b n j) = Qf x0 x1 x2 x3 x4 x5 b n j := by
  have el : ∀ k : Fin 768, lidx_main_v0 (ix3 b n j) k = ix3 b n k := fun k => funext fun a => Fin.ext (by
    match a with | ⟨0, _⟩ => rfl | ⟨1, _⟩ => rfl | ⟨2, _⟩ => rfl)
  have er : ∀ k : Fin 768, ridx_main_v0 (ix3 b n j) k = ix2 j k := fun k => funext fun a => Fin.ext (by
    match a with | ⟨0, _⟩ => rfl | ⟨1, _⟩ => rfl)
  have e1 : idx_main_v1 (idx_main_v2 (ix3 b n j)) = ix1 j := funext fun a => Fin.ext (by
    match a with | ⟨0, _⟩ => rfl)
  have e8 : idx_main_v8 (idx_main_v9 (ix3 b n j)) = ix1 j := funext fun a => Fin.ext (by
    match a with | ⟨0, _⟩ => rfl)
  have e11 : idx_main_v11 (idx_main_v12 (ix3 b n j)) = ix1 j := funext fun a => Fin.ext (by
    match a with | ⟨0, _⟩ => rfl)
  rw [val_main_v13_apply, val_main_v10_apply, val_main_v3_apply, val_main_v0_apply, val_main_v2_apply, val_main_v1_apply,
    val_main_v9_apply, val_main_v8_apply, val_main_v7_apply, val_main_v6_apply, val_main_v5_apply, val_main_v4_apply,
    val_main_cst_apply, val_main_v12_apply, val_main_v11_apply]
  simp only [el, er, e1, e8, e11, Ideal.addf_def, Ideal.mulf_def, Ideal.subf_def, Ideal.hostUnary_rsqrt_def, Ideal.ofBits_def]
  rfl

/-- Head `h`'s query entries are its first 64 of its 384 columns (reshape, slice, transpose). -/
theorem v16_eq (b : Fin 64) (h : Fin 12) (n : Fin 256) (d : Fin 64) :
    val_main_v16 (F := Ideal) x0 x1 x2 x3 x4 x5 (ix4 b h n d) = Qf x0 x1 x2 x3 x4 x5 b n (AttnSpec.qcol h d) := by
  have e : idx_main_v14 (idx_main_v15 (idx_main_v16 (ix4 b h n d))) = ix3 b n (AttnSpec.qcol h d) := funext fun a => Fin.ext (by
    have hb := b.isLt; have hh := h.isLt; have hn := n.isLt; have hd := d.isLt
    match a with
    | ⟨0, _⟩ => show (((b.val * 256 + n.val) * 12 + h.val) * 384 + d.val) / 1179648 = b.val; omega
    | ⟨1, _⟩ => show (((b.val * 256 + n.val) * 12 + h.val) * 384 + d.val) / 4608 % 256 = n.val; omega
    | ⟨2, _⟩ => show (((b.val * 256 + n.val) * 12 + h.val) * 384 + d.val) % 4608 = 384 * h.val + d.val; omega)
  rw [val_main_v16_apply, val_main_v15_apply, val_main_v14_apply, e, v13_eq]

/-- Head `h`'s key entries are the next 64 columns. -/
theorem v18_eq (b : Fin 64) (h : Fin 12) (n : Fin 256) (d : Fin 64) :
    val_main_v18 (F := Ideal) x0 x1 x2 x3 x4 x5 (ix4 b h n d) = Qf x0 x1 x2 x3 x4 x5 b n (AttnSpec.kcol h d) := by
  have e : idx_main_v14 (idx_main_v17 (idx_main_v18 (ix4 b h n d))) = ix3 b n (AttnSpec.kcol h d) := funext fun a => Fin.ext (by
    have hb := b.isLt; have hh := h.isLt; have hn := n.isLt; have hd := d.isLt
    match a with
    | ⟨0, _⟩ => show (((b.val * 256 + n.val) * 12 + h.val) * 384 + (64 + d.val)) / 1179648 = b.val; omega
    | ⟨1, _⟩ => show (((b.val * 256 + n.val) * 12 + h.val) * 384 + (64 + d.val)) / 4608 % 256 = n.val; omega
    | ⟨2, _⟩ => show (((b.val * 256 + n.val) * 12 + h.val) * 384 + (64 + d.val)) % 4608 = 384 * h.val + 64 + d.val; omega)
  rw [val_main_v18_apply, val_main_v17_apply, val_main_v14_apply, e, v13_eq]

/-- Head `h`'s value entries are the last 256 columns. -/
theorem v20_eq (b : Fin 64) (h : Fin 12) (n : Fin 256) (d : Fin 256) :
    val_main_v20 (F := Ideal) x0 x1 x2 x3 x4 x5 (ix4 b h n d) = Qf x0 x1 x2 x3 x4 x5 b n (AttnSpec.vcol h d) := by
  have e : idx_main_v14 (idx_main_v19 (idx_main_v20 (ix4 b h n d))) = ix3 b n (AttnSpec.vcol h d) := funext fun a => Fin.ext (by
    have hb := b.isLt; have hh := h.isLt; have hn := n.isLt; have hd := d.isLt
    match a with
    | ⟨0, _⟩ => show (((b.val * 256 + n.val) * 12 + h.val) * 384 + (128 + d.val)) / 1179648 = b.val; omega
    | ⟨1, _⟩ => show (((b.val * 256 + n.val) * 12 + h.val) * 384 + (128 + d.val)) / 4608 % 256 = n.val; omega
    | ⟨2, _⟩ => show (((b.val * 256 + n.val) * 12 + h.val) * 384 + (128 + d.val)) % 4608 = 384 * h.val + 128 + d.val; omega)
  rw [val_main_v20_apply, val_main_v19_apply, val_main_v14_apply, e, v13_eq]

/-- The scaled scores plus bias: stages 21–33. -/
theorem v33_eq (b : Fin 64) (h : Fin 12) (n k : Fin 256) :
    val_main_v33 (F := Ideal) x0 x1 x2 x3 x4 x5 x6 x12 (ix4 b h n k)
      = AttnSpec.logit (Qf x0 x1 x2 x3 x4 x5 b) (Bf x6 x12) h n k := by
  have el : ∀ d : Fin 64, lidx_main_v21 (ix4 b h n k) d = ix4 b h n d := fun d => funext fun a => Fin.ext (by
    match a with | ⟨0, _⟩ => rfl | ⟨1, _⟩ => rfl | ⟨2, _⟩ => rfl | ⟨3, _⟩ => rfl)
  have er : ∀ d : Fin 64, ridx_main_v21 (ix4 b h n k) d = ix4 b h k d := fun d => funext fun a => Fin.ext (by
    match a with | ⟨0, _⟩ => rfl | ⟨1, _⟩ => rfl | ⟨2, _⟩ => rfl | ⟨3, _⟩ => rfl)
  have e32 : idx_main_v31 (idx_main_v32 (ix4 b h n k)) = ix3 h n k := funext fun a => Fin.ext (by
    match a with | ⟨0, _⟩ => rfl | ⟨1, _⟩ => rfl | ⟨2, _⟩ => rfl)
  rw [val_main_v33_apply, val_main_v30_apply, val_main_v21_apply, val_main_v29_apply, val_main_cst_1_apply,
    val_main_v32_apply, val_main_v31_apply]
  simp only [el, er, e32, v16_eq, v18_eq, Ideal.addf_def, Ideal.mulf_def, Ideal.ofBits_def]
  rfl

/-- A reduced index with the key coordinate put back. -/
theorem lift_ix3 (hr : S64x12x256x256.Reduces [3] S64x12x256) (b : Fin 64) (h : Fin 12) (n : Fin 256)
    (k : Fin (S64x12x256x256.size 3)) : hr.lift (ix3 b h n) k = ix4 b h n (⟨k.val, k.isLt⟩ : Fin 256) := by
  funext c; apply Fin.ext
  match c with | ⟨0, _⟩ => rfl | ⟨1, _⟩ => rfl | ⟨2, _⟩ => rfl | ⟨3, _⟩ => rfl

/-- The row maximum folded from `-∞`: stage 34. -/
theorem v34_eq (b : Fin 64) (h : Fin 12) (n : Fin 256) :
    val_main_v34 (F := Ideal) x0 x1 x2 x3 x4 x5 x6 x12 (ix3 b h n)
      = AttnSpec.rmax (fun k' => AttnSpec.logit (Qf x0 x1 x2 x3 x4 x5 b) (Bf x6 x12) h n k') := by
  have hr : S64x12x256x256.Reduces [3] S64x12x256 := by decide
  unfold val_main_v34
  rw [Host.reduce_eq_fold_single FloatOps.maximumf _ _ reducesTo_S64x12x256x256_S64x12x256_d3 hr h_S_]
  have hf : (val_main_v33 (F := Ideal) x0 x1 x2 x3 x4 x5 x6 x12 ∘ hr.lift (ix3 b h n))
      = fun k : Fin 256 => AttnSpec.logit (Qf x0 x1 x2 x3 x4 x5 b) (Bf x6 x12) h n k :=
    funext fun k => (congrArg (val_main_v33 (F := Ideal) x0 x1 x2 x3 x4 x5 x6 x12) (lift_ix3 hr b h n k)).trans
      (v33_eq x0 x1 x2 x3 x4 x5 x6 x12 b h n _)
  rw [hf]
  rfl

/-- The maximum with `-∞` changes nothing: stage 36. -/
theorem v36_eq (b : Fin 64) (h : Fin 12) (n : Fin 256) :
    val_main_v36 (F := Ideal) x0 x1 x2 x3 x4 x5 x6 x12 (ix3 b h n)
      = AttnSpec.rmax (fun k' => AttnSpec.logit (Qf x0 x1 x2 x3 x4 x5 b) (Bf x6 x12) h n k') := by
  rw [val_main_v36_apply, val_main_v35_apply, val_main_cst_3_apply, v34_eq]
  generalize AttnSpec.rmax _ = y
  show max (Ideal.ofBits .f32 0xFF800000#32) y = y
  simp [Ideal.ofBits, Ideal.ieee]

/-- The shifted exponentials: stages 37–40. -/
theorem v40_eq (b : Fin 64) (h : Fin 12) (n k : Fin 256) :
    val_main_v40 (F := Ideal) x0 x1 x2 x3 x4 x5 x6 x12 (ix4 b h n k)
      = AttnSpec.ex (Qf x0 x1 x2 x3 x4 x5 b) (Bf x6 x12) h n k := by
  have e : idx_main_v37 (idx_main_v38 (ix4 b h n k)) = ix3 b h n := funext fun a => Fin.ext (by
    match a with | ⟨0, _⟩ => rfl | ⟨1, _⟩ => rfl | ⟨2, _⟩ => rfl)
  rw [val_main_v40_apply, val_main_v39_apply, val_main_v38_apply, val_main_v37_apply, e, v36_eq, v33_eq]
  simp only [Ideal.subf_def, Ideal.hostUnary_exp_def]
  rfl

/-- The row sums of the exponentials, from zero: stage 41. -/
theorem v41_eq (b : Fin 64) (h : Fin 12) (n : Fin 256) :
    val_main_v41 (F := Ideal) x0 x1 x2 x3 x4 x5 x6 x12 (ix3 b h n)
      = ∑ k' : Fin 256, AttnSpec.ex (Qf x0 x1 x2 x3 x4 x5 b) (Bf x6 x12) h n k' := by
  have e : ∀ k : Fin 256, idx_main_v41 (ix3 b h n) k = ix4 b h n k := fun k => funext fun a => Fin.ext (by
    match a with | ⟨0, _⟩ => rfl | ⟨1, _⟩ => rfl | ⟨2, _⟩ => rfl | ⟨3, _⟩ => rfl)
  rw [val_main_v41_apply, val_main_cst_4_apply]
  simp only [e, v40_eq, Ideal.ofBits_def, Ideal.ofBits_zero_f32, zero_add]

/-- The row softmax: stages 42–44. -/
theorem v44_eq (b : Fin 64) (h : Fin 12) (n k : Fin 256) :
    val_main_v44 (F := Ideal) x0 x1 x2 x3 x4 x5 x6 x12 (ix4 b h n k)
      = AttnSpec.prob (Qf x0 x1 x2 x3 x4 x5 b) (Bf x6 x12) h n k := by
  have e : idx_main_v42 (idx_main_v43 (ix4 b h n k)) = ix3 b h n := funext fun a => Fin.ext (by
    match a with | ⟨0, _⟩ => rfl | ⟨1, _⟩ => rfl | ⟨2, _⟩ => rfl)
  rw [val_main_v44_apply, val_main_v43_apply, val_main_v42_apply, e, v41_eq, v40_eq]
  simp only [Ideal.hostDivf_def]
  rfl

/-- Probabilities times values: stage 45. -/
theorem v45_eq (b : Fin 64) (h : Fin 12) (n d : Fin 256) :
    val_main_v45 (F := Ideal) x0 x1 x2 x3 x4 x5 x6 x12 (ix4 b h n d)
      = AttnSpec.att (Qf x0 x1 x2 x3 x4 x5 b) (Bf x6 x12) h n d := by
  have el : ∀ k : Fin 256, lidx_main_v45 (ix4 b h n d) k = ix4 b h n k := fun k => funext fun a => Fin.ext (by
    match a with | ⟨0, _⟩ => rfl | ⟨1, _⟩ => rfl | ⟨2, _⟩ => rfl | ⟨3, _⟩ => rfl)
  have er : ∀ k : Fin 256, ridx_main_v45 (ix4 b h n d) k = ix4 b h k d := fun k => funext fun a => Fin.ext (by
    match a with | ⟨0, _⟩ => rfl | ⟨1, _⟩ => rfl | ⟨2, _⟩ => rfl | ⟨3, _⟩ => rfl)
  rw [val_main_v45_apply]
  simp only [el, er, v44_eq, v20_eq]
  rfl

/-- The heads side by side (transpose, reshape): column `j` is head `j / 256` at `j % 256`; stages 46–47. -/
theorem v47_eq (b : Fin 64) (n : Fin 256) (j : Fin 3072) :
    val_main_v47 (F := Ideal) x0 x1 x2 x3 x4 x5 x6 x12 (ix3 b n j)
      = AttnSpec.att (Qf x0 x1 x2 x3 x4 x5 b) (Bf x6 x12) (AttnSpec.hcol j) n (AttnSpec.dcol j) := by
  have e : idx_main_v46 (idx_main_v47 (ix3 b n j)) = ix4 b (AttnSpec.hcol j) n (AttnSpec.dcol j) := funext fun a => Fin.ext (by
    have hb := b.isLt; have hn := n.isLt; have hj := j.isLt
    match a with
    | ⟨0, _⟩ => show ((b.val * 256 + n.val) * 3072 + j.val) / 786432 = b.val; omega
    | ⟨1, _⟩ => show ((b.val * 256 + n.val) * 3072 + j.val) / 256 % 12 = j.val / 256; omega
    | ⟨2, _⟩ => show ((b.val * 256 + n.val) * 3072 + j.val) / 3072 % 256 = n.val; omega
    | ⟨3, _⟩ => show ((b.val * 256 + n.val) * 3072 + j.val) % 256 = j.val % 256; omega)
  rw [val_main_v47_apply, val_main_v46_apply, e, v45_eq]

/-- The hard-swish activation with the program's literals: stages 48–53 and the clip's. -/
theorem v53_eq (b : Fin 64) (n : Fin 256) (j : Fin 3072) :
    val_main_v53 (F := Ideal) x0 x1 x2 x3 x4 x5 x6 x12 (ix3 b n j)
      = AttnSpec.act (Qf x0 x1 x2 x3 x4 x5 b) (Bf x6 x12) n j := by
  rw [val_main_v53_apply, val_main_v51_apply, val_main_v50_apply, val_main_call0_v4_apply, val_main_call0_v3_apply,
    val_main_cst_7_apply, val_main_call0_v2_apply, val_main_call0_v1_apply, val_main_call0_v0_apply, val_main_cst_6_apply,
    val_main_v49_apply, val_main_v48_apply, val_main_cst_5_apply, val_main_v52_apply, val_main_cst_8_apply, v47_eq]
  simp only [Ideal.addf_def, Ideal.mulf_def, Ideal.maximumf_def, Ideal.minimumf_def, Ideal.ofBits_def]
  rfl

/-- The output projection: stage 54. -/
theorem v54_eq (b : Fin 64) (n : Fin 256) (c : Fin 768) :
    val_main_v54 (F := Ideal) x0 x1 x2 x3 x4 x5 x6 x7 x12 (ix3 b n c)
      = AttnSpec.proj (Qf x0 x1 x2 x3 x4 x5 b) (Bf x6 x12) (fun c j => x7 (ix2 c j)) n c := by
  have el : ∀ j : Fin 3072, lidx_main_v54 (ix3 b n c) j = ix3 b n j := fun j => funext fun a => Fin.ext (by
    match a with | ⟨0, _⟩ => rfl | ⟨1, _⟩ => rfl | ⟨2, _⟩ => rfl)
  have er : ∀ j : Fin 3072, ridx_main_v54 (ix3 b n c) j = ix2 c j := fun j => funext fun a => Fin.ext (by
    match a with | ⟨0, _⟩ => rfl | ⟨1, _⟩ => rfl)
  rw [val_main_v54_apply]
  simp only [el, er, v53_eq]
  rfl

/-- The reference program's value at batch `b`, token `n`, channel `c` is the specification's block. -/
theorem ref_eq_spec (b : Fin 64) (n : Fin 256) (c : Fin 768) :
    val_main_v67 (F := Ideal) x0 x1 x2 x3 x4 x5 x6 x7 x8 x9 x10 x11 x12 (ix3 b n c)
      = AttnSpec.outR (fun n k => x0 (ix3 b n k)) (fun j k => x1 (ix2 j k))
          (fun j => x2 (ix1 j)) (fun j => x3 (ix1 j)) (fun j => x4 (ix1 j)) (fun j => x5 (ix1 j))
          (fun h n k => val_main_v28 (F := Ideal) x6 x12 (ix3 h n k))
          (fun c j => x7 (ix2 c j))
          (fun c => x8 (ix1 c)) (fun c => x9 (ix1 c)) (fun c => x10 (ix1 c)) (fun c => x11 (ix1 c)) n c := by
  have e55 : idx_main_v55 (idx_main_v56 (ix3 b n c)) = ix1 c := funext fun a => Fin.ext (by
    match a with | ⟨0, _⟩ => rfl)
  have e62 : idx_main_v62 (idx_main_v63 (ix3 b n c)) = ix1 c := funext fun a => Fin.ext (by
    match a with | ⟨0, _⟩ => rfl)
  have e65 : idx_main_v65 (idx_main_v66 (ix3 b n c)) = ix1 c := funext fun a => Fin.ext (by
    match a with | ⟨0, _⟩ => rfl)
  rw [val_main_v67_apply, val_main_v64_apply, val_main_v57_apply, v54_eq, val_main_v56_apply, val_main_v55_apply,
    val_main_v63_apply, val_main_v62_apply, val_main_v61_apply, val_main_v60_apply, val_main_v59_apply, val_main_v58_apply,
    val_main_cst_9_apply, val_main_v66_apply, val_main_v65_apply]
  simp only [e55, e62, e65, Ideal.addf_def, Ideal.mulf_def, Ideal.subf_def, Ideal.hostUnary_rsqrt_def, Ideal.ofBits_def]
  rfl

end Cert.ReferenceIdeal.RefValue

end
-- ==== Proof.KFinal.lean ====
/-
  The kernel's output array after the run, as one function of the argument arrays: at every grid point the body
  leaves the specification's block in the output's staging buffer, the blocks cover the array, and under finite
  normalisation parameters with variances `≥ 0` the kernel's spelling of the block is the reference's, which is the
  reference's own result term.
-/
import proofs.«110599_j46901042872659_2_alg».proof.Proof.KBody
import proofs.«110599_j46901042872659_2_alg».proof.Proof.KBlocks
import proofs.«110599_j46901042872659_2_alg».proof.Proof.KHost
import proofs.«110599_j46901042872659_2_alg».proof.Proof.RefSide

set_option maxRecDepth 16384

noncomputable section

namespace Cert.KernelIdeal.KV

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The kernel's gathered bias is the reference's: the same host operations of the same two arguments. -/
theorem bias_eq (x6 : FVec Ideal S12x256 .f32) (x12 : IVec S256x256 32) :
    biasOf (F := Ideal) x6 x12 = Cert.ReferenceIdeal.Read.val_main_v28 (F := Ideal) x6 x12 := rfl

/-- The output's staging buffer after the body at point `t`, batch element `b = t`, at an entry. -/
theorem outs_spec (c : Dev nD) (t : Fin cfg0.N) (b : Fin 64) (hb : b.val = t.val) (n : Fin 256) (ch : Fin 768) :
    (outsAt0 m c t : Vec Ideal S1x256x768 .f32) (ix3 (0 : Fin 1) n ch)
      = AttnSpec.outK (fun n k => (m ((c : Thread nD τ).loc main_arg0)) (ix3 b n k)) (fun j k => (m ((c : Thread nD τ).loc main_arg1)) (ix2 j k))
          (fun j => (m ((c : Thread nD τ).loc main_arg2)) (ix1 j)) (fun j => (m ((c : Thread nD τ).loc main_arg3)) (ix1 j)) (fun j => (m ((c : Thread nD τ).loc main_arg4)) (ix1 j)) (fun j => (m ((c : Thread nD τ).loc main_arg5)) (ix1 j))
          (fun h n k => biasOf (F := Ideal) (m ((c : Thread nD τ).loc main_arg6)) (m ((c : Thread nD τ).loc main_arg12)) (ix3 h n k))
          (fun ch j => (m ((c : Thread nD τ).loc main_arg7)) (ix2 ch j))
          (fun ch => (m ((c : Thread nD τ).loc main_arg8)) (ix1 ch)) (fun ch => (m ((c : Thread nD τ).loc main_arg9)) (ix1 ch)) (fun ch => (m ((c : Thread nD τ).loc main_arg10)) (ix1 ch)) (fun ch => (m ((c : Thread nD τ).loc main_arg11)) (ix1 ch)) n ch := by
  unfold outsAt0
  refine body_spec c _ _ _ _ _ _ _ _ _ _ _ _ _ _ _ _ _ _ _ _ _ (iblk m c 0 t) (iblk m c 1 t) (iblk m c 2 t) (iblk m c 3 t) (iblk m c 4 t)
    (iblk m c 5 t) (iblk m c 6 t) (iblk m c 7 t) _ _ _ _ _ _ _ _ _ _ _ _ ?_ ?_ ?_ ?_ ?_ ?_ ?_ ?_ n ch
  · intro n k
    exact (iblk0_apply m c t b hb n k).trans (congrFun (V_main_arg0 m c) _)
  · intro k j
    rw [iblk1_eq m c t]; exact w1_apply m c k j
  · intro j
    rw [iblk2_eq m c t]; exact sc1_apply m c j
  · intro j
    rw [iblk3_eq m c t]; exact sh1_apply m c j
  · intro h n k
    rw [iblk4_eq m c t]; exact congrFun (V_bias m c) _
  · intro j ch
    rw [iblk5_eq m c t]; exact w2_apply m c j ch
  · intro ch
    rw [iblk6_eq m c t]; exact sc2_apply m c ch
  · intro ch
    rw [iblk7_eq m c t]; exact sh2_apply m c ch

/-- The kernel's output array after the run is the reference's result term of the same arguments. -/
theorem kernel_final (c : Dev nD)
    (hG1 : ∀ j : Fin 4608, ∃ r : ℝ, (m ((c : Thread nD τ).loc main_arg2)) (ix1 j) = (r : EReal)) (hB1 : ∀ j : Fin 4608, ∃ r : ℝ, (m ((c : Thread nD τ).loc main_arg3)) (ix1 j) = (r : EReal))
    (hM1 : ∀ j : Fin 4608, ∃ r : ℝ, (m ((c : Thread nD τ).loc main_arg4)) (ix1 j) = (r : EReal)) (hV1 : ∀ j : Fin 4608, ∃ r : ℝ, 0 ≤ r ∧ (m ((c : Thread nD τ).loc main_arg5)) (ix1 j) = (r : EReal))
    (hG2 : ∀ ch : Fin 768, ∃ r : ℝ, (m ((c : Thread nD τ).loc main_arg8)) (ix1 ch) = (r : EReal)) (hB2 : ∀ ch : Fin 768, ∃ r : ℝ, (m ((c : Thread nD τ).loc main_arg9)) (ix1 ch) = (r : EReal))
    (hM2 : ∀ ch : Fin 768, ∃ r : ℝ, (m ((c : Thread nD τ).loc main_arg10)) (ix1 ch) = (r : EReal)) (hV2 : ∀ ch : Fin 768, ∃ r : ℝ, 0 ≤ r ∧ (m ((c : Thread nD τ).loc main_arg11)) (ix1 ch) = (r : EReal)) :
    (dats m 0 c).arrAt 8 cfg0.N
      = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  final8 m c _ (fun t b hb n ch => by
    rw [outs_spec m c t b hb n ch, AttnSpec.outK_eq_outR _ _ _ _ _ _ _ _ _ _ _ _ hG1 hB1 hM1 hV1 hG2 hB2 hM2 hV2,
      Cert.ReferenceIdeal.RefValue.ref_eq_spec, bias_eq])

end Cert.KernelIdeal.KV

end
-- ==== Proof.PreDecode.lean ====
/-
  The precondition `finite_inputs`, read back as facts about the argument arrays.

  The printed predicate is a left-nested conjunction of fourteen `jnp.all`s: for each of the twelve float arguments
  `all (|a| < +inf)`, then `all (a5 >= 0)` and `all (a11 >= 0)`. Over the extended reals `|x| = max x (-x)`, the
  pattern 0x7F800000 is `⊤` and the pattern 0x00000000 is `0`. An extended real `x` with `max x (-x) < ⊤` is neither
  `⊤` (then `max x (-x) = ⊤`) nor `⊥` (then `-x = ⊤`), so it is a real number; with `0 ≤ x` besides it is a nonnegative
  real. The facts are stated for the eight rank-1 arguments the value proof needs (a2, a3, a4, a5 of length 4608 and
  a8, a9, a10, a11 of length 768).
-/
import proofs.«110599_j46901042872659_2_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Idealize.ShloMosaic
open Cert.Pre_finite_inputs

/-- The rank-0 shape has exactly one index: there is no axis to give a coordinate on. -/
instance subsingleton_S_ : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The ordered `<` comparison of extended reals answers 1 exactly when `x < y`. -/
theorem cmp_olt {x y : EReal} : Ideal.cmp .olt x y = 1#1 ↔ x < y := by
  simp only [Ideal.cmp, ofBool_eq_one, decide_eq_true_eq]

/-- The ordered `≥` comparison of extended reals answers 1 exactly when `y ≤ x`. -/
theorem cmp_oge {x y : EReal} : Ideal.cmp .oge x y = 1#1 ↔ y ≤ x := by
  simp only [Ideal.cmp, ofBool_eq_one, decide_eq_true_eq]

/-- The pattern 0x7F800000 (sign 0, exponent all ones, fraction 0) denotes `+∞`. -/
theorem ofBits_inf : Ideal.ofBits .f32 0x7F800000#32 = ⊤ := by simp [Ideal.ofBits, Ideal.ieee]

/-- An extended real whose absolute value `max x (-x)` is below `⊤` is a real number: at `⊤` the maximum is `⊤`, and at
    `⊥` it is `-⊥ = ⊤`. -/
theorem real_of_abs_lt_top (x : EReal) (h : max x (-x) < ⊤) : ∃ r : ℝ, x = (r : EReal) := by
  induction x using EReal.rec with
  | bot => simp at h
  | top => simp at h
  | coe r => exact ⟨r, rfl⟩

variable {s : Shape} {axes : List (Fin s.rank)}

/-- `jnp.all (|x| < +inf)` read at an element: every element of `x` is a real number. -/
theorem real_of_all (x : FVec Ideal s .f32) (bc : S_.BroadcastsInDim s (![] : Fin 0 → Fin s.rank))
    (hr : s.ReducesTo axes S_) (hu : 0 < S_.numel)
    (e : Host.reduce IntOp.andi
          (cmpf .olt (Host.absf x) (broadcastInDim s ![] bc (constant S_ .f32 0x7F800000#32)))
          (constantI S_ 1 1#1) hr hu ValueIdx.ix0 = 1#1)
    (i : s.Idx) : ∃ r : ℝ, x i = (r : EReal) := by
  have h1 : Ideal.cmp .olt (max (x i) (-(x i))) (Ideal.ofBits .f32 0x7F800000#32) = 1#1 :=
    Host.reduce_andi_all _ _ hr hu _ e i
  rw [cmp_olt, ofBits_inf] at h1
  exact real_of_abs_lt_top _ h1

/-- `jnp.all (x >= 0)` read at an element: every element of `x` is at least zero. -/
theorem nonneg_of_all (x : FVec Ideal s .f32) (bc : S_.BroadcastsInDim s (![] : Fin 0 → Fin s.rank))
    (hr : s.ReducesTo axes S_) (hu : 0 < S_.numel)
    (e : Host.reduce IntOp.andi
          (cmpf .oge x (broadcastInDim s ![] bc (constant S_ .f32 0x00000000#32)))
          (constantI S_ 1 1#1) hr hu ValueIdx.ix0 = 1#1)
    (i : s.Idx) : (0 : EReal) ≤ x i := by
  have h1 : Ideal.cmp .oge (x i) (Ideal.ofBits .f32 0x00000000#32) = 1#1 :=
    Host.reduce_andi_all _ _ hr hu _ e i
  rw [cmp_oge, Ideal.ofBits_zero_f32] at h1
  exact h1

/-- A real number that is at least zero as an extended real is a nonnegative real. -/
theorem nonneg_real {x : EReal} (hf : ∃ r : ℝ, x = (r : EReal)) (h0 : (0 : EReal) ≤ x) :
    ∃ r : ℝ, 0 ≤ r ∧ x = (r : EReal) := by
  obtain ⟨r, rfl⟩ := hf
  exact ⟨r, EReal.coe_nonneg.mp h0, rfl⟩

section Main

variable [Cert.Pre_finite_inputs.Facts]
open Cert.Pre_finite_inputs.Facts

variable (a0 : FVec Ideal S64x256x768 .f32) (a1 : FVec Ideal S4608x768 .f32) (a2 : FVec Ideal S4608 .f32)
  (a3 : FVec Ideal S4608 .f32) (a4 : FVec Ideal S4608 .f32) (a5 : FVec Ideal S4608 .f32) (a6 : FVec Ideal S12x256 .f32)
  (a7 : FVec Ideal S768x3072 .f32) (a8 : FVec Ideal S768 .f32) (a9 : FVec Ideal S768 .f32) (a10 : FVec Ideal S768 .f32)
  (a11 : FVec Ideal S768 .f32) (a12 : IVec S256x256 32)

/-- THE PRECONDITION DECODED: the six rank-1 arguments a2, a3, a4, a8, a9, a10 hold real numbers and the two variance
    arguments a5, a11 hold nonnegative real numbers. The printed conjunction is split conjunct by conjunct; each
    `jnp.all` is read at an element. -/
theorem decode
    (h : Cert.Pre_finite_inputs.fn (F := Ideal) a0 a1 a2 a3 a4 a5 a6 a7 a8 a9 a10 a11 a12 = (fun _ => 1#1)) :
    (∀ j : Fin 4608, ∃ r : ℝ, a2 (ValueIdx.ix1 j) = (r : EReal))
    ∧ (∀ j : Fin 4608, ∃ r : ℝ, a3 (ValueIdx.ix1 j) = (r : EReal))
    ∧ (∀ j : Fin 4608, ∃ r : ℝ, a4 (ValueIdx.ix1 j) = (r : EReal))
    ∧ (∀ j : Fin 4608, ∃ r : ℝ, 0 ≤ r ∧ a5 (ValueIdx.ix1 j) = (r : EReal))
    ∧ (∀ c : Fin 768, ∃ r : ℝ, a8 (ValueIdx.ix1 c) = (r : EReal))
    ∧ (∀ c : Fin 768, ∃ r : ℝ, a9 (ValueIdx.ix1 c) = (r : EReal))
    ∧ (∀ c : Fin 768, ∃ r : ℝ, a10 (ValueIdx.ix1 c) = (r : EReal))
    ∧ (∀ c : Fin 768, ∃ r : ℝ, 0 ≤ r ∧ a11 (ValueIdx.ix1 c) = (r : EReal)) := by
  have e := congrFun h ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨⟨⟨-, -⟩, e2⟩, e3⟩, e4⟩, e5⟩, -⟩, -⟩, e8⟩, e9⟩, e10⟩, e11⟩, g5⟩, g11⟩ := e
  exact ⟨fun j => real_of_all a2 _ _ _ e2 _, fun j => real_of_all a3 _ _ _ e3 _, fun j => real_of_all a4 _ _ _ e4 _,
    fun j => nonneg_real (real_of_all a5 _ _ _ e5 _) (nonneg_of_all a5 _ _ _ g5 _),
    fun c => real_of_all a8 _ _ _ e8 _, fun c => real_of_all a9 _ _ _ e9 _, fun c => real_of_all a10 _ _ _ e10 _,
    fun c => nonneg_real (real_of_all a11 _ _ _ e11 _) (nonneg_of_all a11 _ _ _ g11 _)⟩

variable {a0 a1 a2 a3 a4 a5 a6 a7 a8 a9 a10 a11 a12}
variable (h : Cert.Pre_finite_inputs.fn (F := Ideal) a0 a1 a2 a3 a4 a5 a6 a7 a8 a9 a10 a11 a12 = (fun _ => 1#1))
include h

/-- The eight facts of `decode`, one by one. -/
theorem real_a2 : ∀ j : Fin 4608, ∃ r : ℝ, a2 (ValueIdx.ix1 j) = (r : EReal) :=
  (decode a0 a1 a2 a3 a4 a5 a6 a7 a8 a9 a10 a11 a12 h).1
theorem real_a3 : ∀ j : Fin 4608, ∃ r : ℝ, a3 (ValueIdx.ix1 j) = (r : EReal) :=
  (decode a0 a1 a2 a3 a4 a5 a6 a7 a8 a9 a10 a11 a12 h).2.1
theorem real_a4 : ∀ j : Fin 4608, ∃ r : ℝ, a4 (ValueIdx.ix1 j) = (r : EReal) :=
  (decode a0 a1 a2 a3 a4 a5 a6 a7 a8 a9 a10 a11 a12 h).2.2.1
theorem nonneg_a5 : ∀ j : Fin 4608, ∃ r : ℝ, 0 ≤ r ∧ a5 (ValueIdx.ix1 j) = (r : EReal) :=
  (decode a0 a1 a2 a3 a4 a5 a6 a7 a8 a9 a10 a11 a12 h).2.2.2.1
theorem real_a8 : ∀ c : Fin 768, ∃ r : ℝ, a8 (ValueIdx.ix1 c) = (r : EReal) :=
  (decode a0 a1 a2 a3 a4 a5 a6 a7 a8 a9 a10 a11 a12 h).2.2.2.2.1
theorem real_a9 : ∀ c : Fin 768, ∃ r : ℝ, a9 (ValueIdx.ix1 c) = (r : EReal) :=
  (decode a0 a1 a2 a3 a4 a5 a6 a7 a8 a9 a10 a11 a12 h).2.2.2.2.2.1
theorem real_a10 : ∀ c : Fin 768, ∃ r : ℝ, a10 (ValueIdx.ix1 c) = (r : EReal) :=
  (decode a0 a1 a2 a3 a4 a5 a6 a7 a8 a9 a10 a11 a12 h).2.2.2.2.2.2.1
theorem nonneg_a11 : ∀ c : Fin 768, ∃ r : ℝ, 0 ≤ r ∧ a11 (ValueIdx.ix1 c) = (r : EReal) :=
  (decode a0 a1 a2 a3 a4 a5 a6 a7 a8 a9 a10 a11 a12 h).2.2.2.2.2.2.2

end Main

end Cert.Pre_finite_inputs.Decode

end
-- ==== Proof.lean ====
/-
  The fused attention block against its jnp reference, on the extended reals.

  Both programs compute, for each of 64 batch elements, the QKV projection with an inference-mode batch
  normalisation, twelve attention heads (scaled query–key scores plus a gathered relative-position bias, a row
  softmax, probabilities times values), hardswish, and the output projection with its own normalisation. The kernel
  folds each normalisation into one multiply-add, `y · s + (β − μ · s)` with `s = γ · rsqrt (var + ε)`, where the
  reference computes `(y − μ) · s + β`; the two agree at every extended real `y` once `s`, `μ`, `β` are real, which
  the precondition gives (finite parameters, variances `≥ 0`, so `var + ε > 0`). Everything else is the same
  arithmetic in another layout: per batch element and head on [256, 384] blocks in the kernel, on [64, 12, 256, ·]
  arrays in the reference.
  The frames are the generated ones (the reference's is its generated run with the result dropped); the ideal pass
  rewrote nothing, so the kernel's idealization is its own text.
-/
import proofs.«110599_j46901042872659_2_alg».proof.Defs
import proofs.«110599_j46901042872659_2_alg».proof.Proof.Gen.Kernel
import proofs.«110599_j46901042872659_2_alg».proof.Proof.Gen.Kernel.Skeleton
import proofs.«110599_j46901042872659_2_alg».proof.Proof.Gen.Kernel.Launch
import proofs.«110599_j46901042872659_2_alg».proof.Proof.Gen.Kernel.Points
import proofs.«110599_j46901042872659_2_alg».proof.Proof.Gen.Kernel.Frame
import proofs.«110599_j46901042872659_2_alg».proof.Proof.Gen.KernelIdeal
import proofs.«110599_j46901042872659_2_alg».proof.Proof.Gen.KernelIdeal.Skeleton
import proofs.«110599_j46901042872659_2_alg».proof.Proof.Gen.KernelIdeal.Launch
import proofs.«110599_j46901042872659_2_alg».proof.Proof.Gen.KernelIdeal.Points
import proofs.«110599_j46901042872659_2_alg».proof.Proof.Gen.KernelIdeal.Frame
import proofs.«110599_j46901042872659_2_alg».proof.Proof.Gen.ReferenceIdeal
import proofs.«110599_j46901042872659_2_alg».proof.Proof.Gen.Pre_finite_inputs
import proofs.«110599_j46901042872659_2_alg».proof.Proof.Gen.KernelIdeal.Value
import proofs.«110599_j46901042872659_2_alg».proof.Proof.Gen.ReferenceIdeal.Run
import proofs.«110599_j46901042872659_2_alg».proof.Proof.Gen.ReferenceIdeal.Read
import proofs.«110599_j46901042872659_2_alg».proof.Proof.KFinal
import proofs.«110599_j46901042872659_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, both idealized programs end with the reference's result term of those
    arguments: the kernel's output array by the value of its blocks, the reference's by its generated run. -/
theorem algebraic : Cert.algebraic_KernelIdeal_ReferenceIdeal := by
  intro m ρ m' ρ' hpre hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩) (Cert.KernelIdeal.Value.run_blocks m ρ)
    exact Cert.KernelIdeal.KV.kernel_final m c
      (Cert.Pre_finite_inputs.Decode.real_a2 (hpre c)) (Cert.Pre_finite_inputs.Decode.real_a3 (hpre c))
      (Cert.Pre_finite_inputs.Decode.real_a4 (hpre c)) (Cert.Pre_finite_inputs.Decode.nonneg_a5 (hpre c))
      (Cert.Pre_finite_inputs.Decode.real_a8 (hpre c)) (Cert.Pre_finite_inputs.Decode.real_a9 (hpre c))
      (Cert.Pre_finite_inputs.Decode.real_a10 (hpre c)) (Cert.Pre_finite_inputs.Decode.nonneg_a11 (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v67_eq]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
